-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x128 .f32) (main_arg1 : IVec S2x262144 32) (main_arg2 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S16384x128 : Shape := ⟨2, ![16384, 128]⟩
abbrev S2x262144 : Shape := ⟨2, ![2, 262144]⟩
abbrev S128x128 : Shape := ⟨2, ![128, 128]⟩
abbrev S_ : Shape := ⟨0, ![]⟩
abbrev S16384x16384 : Shape := ⟨2, ![16384, 16384]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S16384x1 : Shape := ⟨2, ![16384, 1]⟩
abbrev S512x4096 : Shape := ⟨2, ![512, 4096]⟩
abbrev S4096x128 : Shape := ⟨2, ![4096, 128]⟩
abbrev S512x128 : Shape := ⟨2, ![512, 128]⟩

abbrev nBuf : Space → Nat
  | .hbm => 34
  | .vmem => 17
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x128, .f32⟩
  | .hbm, ⟨3, _⟩ => ⟨S_, .f32⟩
  | .hbm, ⟨4, _⟩ => ⟨S16384x16384, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x1, .i32⟩
  | .hbm, ⟨25, _⟩ => ⟨S262144x2, .i32⟩
  | .hbm, ⟨26, _⟩ => ⟨S_, .f32⟩
  | .hbm, ⟨27, _⟩ => ⟨S262144, .f32⟩
  | .hbm, ⟨28, _⟩ => ⟨S16384x16384, .f32⟩
  | .hbm, ⟨29, _⟩ => ⟨S16384x128, .f32⟩
  | .hbm, ⟨30, _⟩ => ⟨S16384x1, .f32⟩
  | .hbm, ⟨31, _⟩ => ⟨S16384x128, .f32⟩
  | .hbm, ⟨32, _⟩ => ⟨S16384x128, .f32⟩
  | .hbm, ⟨33, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S512x4096, .f32⟩
  | .local _ .vmem, ⟨6, _⟩ => ⟨S512x4096, .f32⟩
  | .local _ .vmem, ⟨7, _⟩ => ⟨S4096x128, .f32⟩
  | .local _ .vmem, ⟨8, _⟩ => ⟨S4096x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S128x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S16384x16384 : S_.BroadcastsInDim S16384x16384 (![] : Fin 0 → Fin S16384x16384.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  shapeCasts_S1024x1_S1024x1 : S1024x1.ShapeCasts S1024x1
  broadcasts_S1024x1_S1024x128 : S1024x1.Broadcasts S1024x128
  slices_S16384x128_S16384x1_0_0 : S16384x128.Slices ![0, 0] S16384x1
  bcast_S16384x1_S16384x128_0_1 : S16384x1.BroadcastsInDim S16384x128 (![0, 1] : Fin 2 → Fin S16384x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  scatter_S16384x16384_S262144x2_S262144_n_01_01_1_wf : ScatterDims.WF S16384x16384 S262144x2 S262144 [] [0, 1] [0, 1] 1
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x16384.size a
  hwx1_0 : ∀ i : grid1.Coords, EltTy.bits .f32 = 32 ∨ (Rect.block (s := S16384x16384) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .f32 = 32 ∨ (Rect.block (s := S16384x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S16384x128.size a
  hwx1_2 : ∀ i : grid1.Coords, EltTy.bits .f32 = 32 ∨ (Rect.block (s := S16384x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S16384x128.size a
  hwx1_3 : ∀ i : grid1.Coords, EltTy.bits .f32 = 32 ∨ (Rect.block (s := S16384x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S16384x128.size a
  hwx1_5 : ∀ i : grid1.Coords, EltTy.bits .f32 = 32 ∨ (Rect.block (s := S16384x128) S512x128.size (cc1_transform_5 i) (hinb1_5 i)).WholeWords (EltTy.packing .f32)

variable [Facts₀]

def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v19) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S2x262144 : Shape := ⟨2, ![2, 262144]⟩
abbrev S128x128 : Shape := ⟨2, ![128, 128]⟩
abbrev S_ : Shape := ⟨0, ![]⟩
abbrev S16384x16384 : Shape := ⟨2, ![16384, 16384]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S16384 : Shape := ⟨1, ![16384]⟩
abbrev S16384x1 : Shape := ⟨2, ![16384, 1]⟩
abbrev S1x16384 : Shape := ⟨2, ![1, 16384]⟩

abbrev nBuf : Space → Nat
  | .hbm => 56
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x128, .f32⟩
  | .hbm, ⟨3, _⟩ => ⟨S_, .f32⟩
  | .hbm, ⟨4, _⟩ => ⟨S16384x16384, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x1, .i32⟩
  | .hbm, ⟨25, _⟩ => ⟨S262144x2, .i32⟩
  | .hbm, ⟨26, _⟩ => ⟨S_, .f32⟩
  | .hbm, ⟨27, _⟩ => ⟨S262144, .f32⟩
  | .hbm, ⟨28, _⟩ => ⟨S16384x16384, .f32⟩
  | .hbm, ⟨29, _⟩ => ⟨S16384x16384, .i32⟩
  | .hbm, ⟨30, _⟩ => ⟨S16384x16384, .i32⟩
  | .hbm, ⟨31, _⟩ => ⟨S_, .i32⟩
  | .hbm, ⟨32, _⟩ => ⟨S16384x16384, .i32⟩
  | .hbm, ⟨33, _⟩ => ⟨S16384x16384, .i32⟩
  | .hbm, ⟨34, _⟩ => ⟨S16384x16384, .i1⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .i1⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1, .f32⟩
  | .hbm, ⟨48, _⟩ => ⟨S16384x16384, .f32⟩
  | .hbm, ⟨49, _⟩ => ⟨S16384x16384, .f32⟩
  | .hbm, ⟨50, _⟩ => ⟨S1x16384, .f32⟩
  | .hbm, ⟨51, _⟩ => ⟨S16384x16384, .f32⟩
  | .hbm, ⟨52, _⟩ => ⟨S16384x16384, .f32⟩
  | .hbm, ⟨53, _⟩ => ⟨S16384x128, .f32⟩
  | .hbm, ⟨54, _⟩ => ⟨S16384x128, .f32⟩
  | .hbm, ⟨55, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  scatter_S16384x16384_S262144x2_S262144_n_01_01_1_wf : ScatterDims.WF S16384x16384 S262144x2 S262144 [] [0, 1] [0, 1] 1
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Kernel.R0Base.lean ====
/-
  The degree region (the program's first kernel region): what its body's proof is stated over.
  The grid is 16 × 8; a point `t` has row block `t / 8` and column block `t % 8`. The body zeroes its
  scratch accumulator where the column block is 0, adds the block's row sums at every point, and where the column
  block is 7 stores `rsqrt (acc + 1)` (guarded) into the output block. So the output window is idle, and not
  written back, at every point whose column block is not 7.
-/
import proofs.«163696_j36515811950755_1_alg».proof.Proof.Gen.Kernel.Launch
import proofs.«163696_j36515811950755_1_alg».proof.Proof.Gen.Kernel.Skeleton
import proofs.«163696_j36515811950755_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "The column block is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "The column block is 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-- One staging buffer of the output window, through which its contents are stated. -/
abbrev VO0_1 : View sig .tc .vmem S1024x128 .f32 := (Memref.whole cc0_stg1_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
/-- The scratch accumulator. -/
abbrev scM0_0 : Memref sig .tc .vmem S1024x128 .f32 := Memref.whole cc0_scratch0
abbrev VS0_0 : View sig .tc .vmem S1024x128 .f32 := scM0_0.view

/-- The scoped rest with the accumulator split out. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.Kernel.Fr

end
-- ==== Proof.Kernel.R0RunA.lean ====
/-
  The degree region's body at a point whose column block is 0: the accumulator is zeroed, then the block's row sums
  are added to it; nothing is stored into the output block.
-/
import proofs.«163696_j36515811950755_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun0_A (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) :
    Σ' (L1 : List (View.Piece (Elt F) S1024x128 .f32)), { LS0 : List (View.Piece (Elt F) S1024x128 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨[], ?_, fun xi1 E K => ?run⟩
  case run =>
    simp only [cc0_degree_kernel_body_eq_skeleton]; unfold cc0_degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Kernel.R0RunB.lean ====
/-
  The degree region's body at a point whose column block is neither 0 nor 7: the block's row sums are added to the
  accumulator the point before left; nothing is stored into the output block.
-/
import proofs.«163696_j36515811950755_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun0_B (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) :
    Σ' (L1 : List (View.Piece (Elt F) S1024x128 .f32)), { LS0 : List (View.Piece (Elt F) S1024x128 .f32) //
      ∀ (xi1 : Vec F S1024x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨[], ?_, fun xi1 E K => ?run⟩
  case run =>
    simp only [cc0_degree_kernel_body_eq_skeleton]; unfold cc0_degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Kernel.R0RunC.lean ====
/-
  The degree region's body at a point whose column block is 7: the block's row sums are added to the accumulator the
  point before left, and the guarded inverse square root of (accumulator + 1) is stored into the output block.
-/
import proofs.«163696_j36515811950755_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator, with its triple. -/
noncomputable def kernelRun0_C (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) :
    Σ' (L1 : List (View.Piece (Elt F) S1024x128 .f32)), { LS0 : List (View.Piece (Elt F) S1024x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨?_, ?_, fun E K => ?run⟩
  case run =>
    simp only [cc0_degree_kernel_body_eq_skeleton]; unfold cc0_degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.Kernel.R0.lean ====
/-
  The degree region, point by point: what the output block and the scratch accumulator hold after each grid point,
  the region's proof data, and its body obligation.
  A point with column block 0 leaves in the accumulator the block's row sums over zero; a later point adds its block's
  row sums to what the point before left; the last column block also stores the guarded inverse square root of
  (accumulator + 1) into the output block, which is written back there and only there.
-/
import proofs.«163696_j36515811950755_1_alg».proof.Proof.Kernel.R0RunA
import proofs.«163696_j36515811950755_1_alg».proof.Proof.Kernel.R0RunB
import proofs.«163696_j36515811950755_1_alg».proof.Proof.Kernel.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) (y : S1024x128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x128.size (by sl_kernel_rfl) y

/-- The accumulator after a point with column block 0. -/
def sout0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) : Vec F S1024x128 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) (y : S1024x128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x128.size (by sl_kernel_rfl) y

/-- The accumulator after a point with column block in 1..6. -/
def sout0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) : Vec F S1024x128 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) (y : S1024x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x128.size (by sl_kernel_rfl) y

/-- The output block after a point with column block 7. -/
def out0_C_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) : Vec F S1024x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) (y : S1024x128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x128.size (by sl_kernel_rfl) y

/-- The accumulator after a point with column block 7. -/
def sout0_C_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) : Vec F S1024x128 .f32 :=
  VS0_0.read (Elt F) (VS0_0.writes (Elt F) VS0_0.junk (kernelRun0_C c i arg2 harg2 arg3 harg3 arg4 harg4 hc0 hc1 x0 xs0).2.1)

/-! ## The cases at a grid point -/

/-- What an idle point "leaves" in the output block: nothing is consulted there. -/
def idleOut0 : Vec F S1024x128 .f32 := VO0_1.read (Elt F) VO0_1.junk

def sA0 (c : Dev nD) (t : Fin cfg0.N) (h0 : t.val % 8 = 0) (h1 : ¬t.val % 8 = 7) : Vec F S1024x128 .f32 :=
  sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)
def sB0 (c : Dev nD) (t : Fin cfg0.N) (h0 : ¬t.val % 8 = 0) (h1 : ¬t.val % 8 = 7) (xs0 : Vec F S1024x128 .f32) : Vec F S1024x128 .f32 :=
  sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs0
def sC0 (c : Dev nD) (t : Fin cfg0.N) (h0 : ¬t.val % 8 = 0) (h1 : t.val % 8 = 7) (xs0 : Vec F S1024x128 .f32) : Vec F S1024x128 .f32 :=
  sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) xs0
def oC0 (c : Dev nD) (t : Fin cfg0.N) (h0 : ¬t.val % 8 = 0) (h1 : t.val % 8 = 7) (xs0 : Vec F S1024x128 .f32) : Vec F S1024x128 .f32 :=
  out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) xs0

/-- THE ACCUMULATION: the output block and the accumulator after the body at position `n`. -/
def outsAt0 (c : Dev nD) : (n : ℕ) → n < cfg0.N → Vec F S1024x128 .f32 × Vec F S1024x128 .f32
  | 0, hn => (idleOut0, sA0 V c ⟨0, hn⟩ (Nat.zero_mod _) (show ¬(0 : ℕ) % 8 = 7 by decide))
  | n + 1, hn =>
    if h0 : (n + 1) % 8 = 0 then
      if h1 : (n + 1) % 8 = 7 then False.elim (by omega)
      else (idleOut0, sA0 V c ⟨n + 1, hn⟩ h0 h1)
    else
      if h1 : (n + 1) % 8 = 7 then
        (oC0 V c ⟨n + 1, hn⟩ h0 h1 (outsAt0 c n (Nat.lt_of_succ_lt hn)).2, sC0 V c ⟨n + 1, hn⟩ h0 h1 (outsAt0 c n (Nat.lt_of_succ_lt hn)).2)
      else
        (idleOut0, sB0 V c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sA0 V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (oC0 V c t h0 h1 (outsAt0 V c (t.val - 1) (Nat.lt_of_le_of_lt (Nat.sub_le _ _) t.isLt)).2, sC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the other region, each whole at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0_0 fullShare d) ∗ rest0 c) ∗ (∃ r, prngReg c r)) := by
  rw [PhiA0_eq]; rfl

/-- Before the first point the scoped rest at anything; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sA0 sout0_A_0; (try dsimp only)
      by_cases hz : t.val = 0
      · rw [PhiS0_castSucc V c t, PhiS0_zero V c _ _ hz, PhiA0_eq']
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold oC0 sC0 out0_C_1 sout0_C_0; (try dsimp only)
      rw [PhiS0_castSucc V c t, PhiS0_pos V c _ _ hz]
      iintro ⟨⟨⟨HS0, HR⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sB0 sout0_B_0; (try dsimp only)
      rw [PhiS0_castSucc V c t, PhiS0_pos V c _ _ hz]
      iintro ⟨⟨⟨HS0, HR⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Fr

end
-- ==== Proof.Kernel.R1Base.lean ====
/-
  The layer region (the program's second kernel region): what its body's proof is stated over.
  The grid is 32 × 4; a point `t` has row block `t / 4` and column block `t % 4`. The body zeroes its scratch
  accumulator where the column block is 0, adds the product of the adjacency block with the scaled-feature block at
  every point, and where the column block is 3 adds the row block of the scaled features, scales the rows, multiplies by
  the weights and stores the hyperbolic tangent into the output block. So the output window is idle, and not written
  back, at every point whose column block is not 3.
-/
import proofs.«163696_j36515811950755_1_alg».proof.Proof.Gen.Kernel.Launch
import proofs.«163696_j36515811950755_1_alg».proof.Proof.Gen.Kernel.Skeleton
import proofs.«163696_j36515811950755_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- "The column block is 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The column block is 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S512x128 .f32 := (Memref.whole cc1_stg5_0 : Memref sig .tc .vmem S512x128 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The scratch accumulator. -/
abbrev scM1_0 : Memref sig .tc .vmem S512x128 .f32 := Memref.whole cc1_scratch0
abbrev VS1_0 : View sig .tc .vmem S512x128 .f32 := scM1_0.view

/-- The other region's scoped buffers, each whole at some contents, and the generator register at some state: they ride along untouched. -/
def restG1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ r, prngReg c r))

/-- The scoped rest with the accumulator split out, -/
theorem PhiA1_split (c : Dev nD) :
    (Pipeline.ΦA spec1 c : sProp 𝕄) ⊢ iprop((∃ d, owns (c : Thread nD τ) scM1_0 fullShare d) ∗ restG1 c) := by
  unfold Pipeline.ΦA restG1; rw [scopedRest1_eq]; simp only [scM1_0, owns_whole]
  iintro ⟨⟨Ha, Hb, Hc, Hd, He, HS⟩, Hg⟩
  isplitl [HS]; · iexact HS
  isplitl [Ha]; · iexact Ha
  isplitl [Hb]; · iexact Hb
  isplitl [Hc]; · iexact Hc
  isplitl [Hd]; · iexact Hd
  isplitl [He]; · iexact He
  iexact Hg
/-- and put back. -/
theorem PhiA1_join (c : Dev nD) :
    iprop((∃ d, owns (c : Thread nD τ) scM1_0 fullShare d) ∗ restG1 c) ⊢ (Pipeline.ΦA spec1 c : sProp 𝕄) := by
  unfold Pipeline.ΦA restG1; rw [scopedRest1_eq]; simp only [scM1_0, owns_whole]
  iintro ⟨HS, Ha, Hb, Hc, Hd, He, Hg⟩
  isplitr [Hg]
  · isplitl [Ha]; · iexact Ha
    isplitl [Hb]; · iexact Hb
    isplitl [Hc]; · iexact Hc
    isplitl [Hd]; · iexact Hd
    isplitl [He]; · iexact He
    iexact HS
  iexact Hg

end Cert.Kernel.Fr

end
-- ==== Proof.Kernel.R1RunA.lean ====
/-
  The layer region's body at a point whose column block is 0: the accumulator is zeroed, then the product of the
  adjacency block with the scaled-feature block is added to it; nothing is stored into the output block.
-/
import proofs.«163696_j36515811950755_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun1_A (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨[], ?_, fun xi5 E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Kernel.R1RunB.lean ====
/-
  The layer region's body at a point whose column block is 1 or 2: the product of the adjacency block with the
  scaled-feature block is added to the accumulator the point before left; nothing is stored into the output block.
-/
import proofs.«163696_j36515811950755_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun1_B (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨[], ?_, fun xi5 E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Kernel.R1RunC.lean ====
/-
  The layer region's body at a point whose column block is 3: the last block product is added to the accumulator the
  point before left; then the row block of the scaled features is added, the rows are scaled, the result is multiplied by
  the weights and its hyperbolic tangent is stored into the output block.
-/
import proofs.«163696_j36515811950755_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator, with its triple. -/
noncomputable def kernelRun1_C (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨?_, ?_, fun E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.Kernel.R1.lean ====
/-
  The layer region, point by point: what the output block and the scratch accumulator hold after each grid point,
  the region's proof data, and its body obligation.
  A point with column block 0 leaves in the accumulator the block product over zero; a later point adds its block
  product to what the point before left; the last column block also stores the layer's output rows into the output
  block, which is written back there and only there.
-/
import proofs.«163696_j36515811950755_1_alg».proof.Proof.Kernel.R1RunA
import proofs.«163696_j36515811950755_1_alg».proof.Proof.Kernel.R1RunB
import proofs.«163696_j36515811950755_1_alg».proof.Proof.Kernel.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) (y : S512x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x128.size (by sl_kernel_rfl) y

/-- The accumulator after a point with column block 0. -/
def sout1_A_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

theorem scover1_B_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x128.size (by sl_kernel_rfl) y

/-- The accumulator after a point with column block 1 or 2. -/
def sout1_B_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

theorem cover1_C_5 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x128.size (by sl_kernel_rfl) y

/-- The output block after a point with column block 3. -/
def out1_C_5 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x128.size (by sl_kernel_rfl) y

/-- The accumulator after a point with column block 3. -/
def sout1_C_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## The cases at a grid point -/

/-- What an idle point "leaves" in the output block: nothing is consulted there. -/
def idleOut1 : Vec F S512x128 .f32 := VO1_5.read (Elt F) VO1_5.junk

def sA1 (c : Dev nD) (t : Fin cfg1.N) (h0 : t.val % 4 = 0) (h1 : ¬t.val % 4 = 3) : Vec F S512x128 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
def sB1 (c : Dev nD) (t : Fin cfg1.N) (h0 : ¬t.val % 4 = 0) (h1 : ¬t.val % 4 = 3) (xs0 : Vec F S512x128 .f32) : Vec F S512x128 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0
def sC1 (c : Dev nD) (t : Fin cfg1.N) (h0 : ¬t.val % 4 = 0) (h1 : t.val % 4 = 3) (xs0 : Vec F S512x128 .f32) : Vec F S512x128 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0
def oC1 (c : Dev nD) (t : Fin cfg1.N) (h0 : ¬t.val % 4 = 0) (h1 : t.val % 4 = 3) (xs0 : Vec F S512x128 .f32) : Vec F S512x128 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

/-- THE ACCUMULATION: the output block and the accumulator after the body at position `n`. -/
def outsAt1 (c : Dev nD) : (n : ℕ) → n < cfg1.N → Vec F S512x128 .f32 × Vec F S512x128 .f32
  | 0, hn => (idleOut1, sA1 V c ⟨0, hn⟩ (Nat.zero_mod _) (show ¬(0 : ℕ) % 4 = 3 by decide))
  | n + 1, hn =>
    if h0 : (n + 1) % 4 = 0 then
      if h1 : (n + 1) % 4 = 3 then False.elim (by omega)
      else (idleOut1, sA1 V c ⟨n + 1, hn⟩ h0 h1)
    else
      if h1 : (n + 1) % 4 = 3 then
        (oC1 V c ⟨n + 1, hn⟩ h0 h1 (outsAt1 c n (Nat.lt_of_succ_lt hn)).2, sC1 V c ⟨n + 1, hn⟩ h0 h1 (outsAt1 c n (Nat.lt_of_succ_lt hn)).2)
      else
        (idleOut1, sB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (idleOut1, sA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut1, sB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (oC1 V c t h0 h1 (outsAt1 V c (t.val - 1) (Nat.lt_of_le_of_lt (Nat.sub_le _ _) t.isLt)).2, sC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the scoped rest at anything; afterwards the accumulator at what the point before left. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restG1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ restG1 c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restG1 c) := by
  cases n with
  | zero => exact absurd rfl hz
  | succ n => rfl

/-! ## The proof data -/

/-- The two windows that read the scaled features share that array: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sA1 sout1_A_0; (try dsimp only)
      have hΦ : (dat1 V c).Φ t.castSucc ⊢ iprop((∃ d, owns (c : Thread nD τ) scM1_0 fullShare d) ∗ restG1 c) := by
        rw [PhiS1_castSucc V c t]
        by_cases hz : t.val = 0
        · rw [PhiS1_zero V c _ _ hz]; exact PhiA1_split c
        · rw [PhiS1_pos V c _ _ hz]
          iintro ⟨HS0, HR⟩
          isplitl [HS0]; · iexists _; iexact HS0
          iexact HR
      refine (sep_mono hΦ .rfl).trans ?_
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold oC1 sC1 out1_C_5 sout1_C_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sB1 sout1_B_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS0, HR⟩
  isplitl [HS0]
  · iexists _; iexact HS0
  iexact HR

theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.Kernel.R1Arrays.lean ====
/-
  The layer region's arrays at its entry and exit.
  Two of its input windows — the column blocks and the row blocks of the scaled features — read ONE array, so that
  array is held in two halves, one per window; the other four arrays are held whole. At entry the core's unscoped
  buffers split into the six windows' arrays (the shared one halved) and the rest; at exit they are joined again, the
  output's array at what the write-backs left.
-/
import proofs.«163696_j36515811950755_1_alg».proof.Proof.Kernel.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the six windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v19) ↦{fullShare} V' main_v19) ∗ (((c : Thread nD τ).loc main_v23) ↦{fullShare} V' main_v23)
          ∗ (((c : Thread nD τ).loc main_v20) ↦{fullShare} V' main_v20) ∗ (((c : Thread nD τ).loc main_arg2) ↦{fullShare} V' main_arg2)
          ∗ (((c : Thread nD τ).loc main_v24) ↦{fullShare} V' main_v24)) := by
  unfold Pipeline.arrBufs
  exact bigSep_eq_bigSepL_of_eq [main_v19, main_v23, main_v20, main_arg2, main_v24] (by decide) (by decide) _

/-- The windows' arrays, one by one: whole buffers, the shared one in halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v19) ↦{fullShare} G 0) ∗ (((c : Thread nD τ).loc main_v23) ↦{fullShare.left} G 1)
          ∗ (((c : Thread nD τ).loc main_v23) ↦{fullShare.right} G 2) ∗ (((c : Thread nD τ).loc main_v20) ↦{fullShare} G 3)
          ∗ (((c : Thread nD τ).loc main_arg2) ↦{fullShare} G 4) ∗ (((c : Thread nD τ).loc main_v24) ↦{fullShare} G 5)) := by
  unfold Dat.arrays
  rw [bigSep_W1]
  rw [(arr_whole1 0).set_eq_univ, (arr_whole1 1).set_eq_univ, (arr_whole1 3).set_eq_univ, (arr_whole1 4).set_eq_univ, (arr_whole1 5).set_eq_univ]
  rfl

/-- ENTRY: the core's unscoped buffers are the region's arrays at their entry contents and the rest. -/
theorem entry1 (c : Dev nD) :
    (unscopedBufs c (V c) : sProp 𝕄)
      ⊢ iprop((dat1 V c).arrays (fun w => (dat1 V c).arrAt w 0) ∗ Pipeline.unscopedRest (Ix := Unit) (Name := ℕ) (U := UR sig nD τ) (Lvl := ℕ) spec1 c (V c)) := by
  rw [show (unscopedBufs c (V c) : sProp 𝕄) = iprop(Pipeline.arrBufs spec1 c (V c) ∗ Pipeline.unscopedRest spec1 c (V c)) from Pipeline.unscopedBufs_split₀ cfgs 1 winFacts₀1.arr_unscoped c (V c), arrBufs1_eq, arrays1_eq]
  iintro ⟨⟨H19, H23, H20, Ha2, H24⟩, Hrest⟩
  ihave H23' := (pointsTo_share (PosShare.mem_left_op_right fullShare)).1 $$ H23
  icases H23' with ⟨H23l, H23r⟩
  isplitr [Hrest]
  · isplitl [H19]; · iexact H19
    isplitl [H23l]; · iexact H23l
    isplitl [H23r]; · iexact H23r
    isplitl [H20]; · iexact H20
    isplitl [Ha2]; · iexact Ha2
    iexact H24
  iexact Hrest

/-- EXIT: the region's arrays at contents `G` and the rest are the core's unscoped buffers at any valuation that has the
    arrays at `G` and agrees with the entry valuation off them. -/
theorem exit1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  rw [show (unscopedBufs c V' : sProp 𝕄) = iprop(Pipeline.arrBufs spec1 c V' ∗ Pipeline.unscopedRest spec1 c V') from Pipeline.unscopedBufs_split₀ cfgs 1 winFacts₀1.arr_unscoped c V', arrBufs1_eq, arrays1_eq]
  rw [hG 0, hG 1, hG 2, hG 3, hG 4, hG 5]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨H19, H23l, H23r, H20, Ha2, H24⟩, Hrest⟩
  isplitr [Hrest]
  · isplitl [H19]; · iexact H19
    isplitl [H23l H23r]
    · iapply (pointsTo_share (PosShare.mem_left_op_right fullShare)).2
      isplitl [H23l]; · iexact H23l
      iexact H23r
    isplitl [H20]; · iexact H20
    isplitl [Ha2]; · iexact Ha2
    iexact H24
  iexact Hrest

end Cert.Kernel.Fr

end
-- ==== Proof.Kernel.Frame.lean ====
/-
  The whole run: the host operations that build the adjacency, the degree region, the host operations that scale the
  features, the layer region. The buffer contents at each boundary are a fold from the launch memory: a stretch of host
  operations applies them; a region leaves its inputs as entered and its output at what the write-backs leave. No
  stretch and no region writes an argument, and the result buffer ends at what the layer region's write-backs leave.
-/
import proofs.«163696_j36515811950755_1_alg».proof.Proof.Kernel.R0
import proofs.«163696_j36515811950755_1_alg».proof.Proof.Kernel.R1Arrays
import proofs.«163696_j36515811950755_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations that build the adjacency (the degree region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the degree region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations that scale the features (the layer region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the layer region's exit: the result buffer at what the write-backs leave, every other buffer as entered. -/
def W4 (c : Dev nD) : Valuation τ sig (Elt F) :=
  Function.update (W3 m ρ c) (Proc.devRef .tc main_v24) ((dat1 (V3 m ρ) c).arrAt 5 cfg1.N)
theorem W4_out (c : Dev nD) : W4 m ρ c (Proc.devRef .tc main_v24) = (dat1 (V3 m ρ) c).arrAt 5 cfg1.N := by
  unfold W4; exact Function.update_self _ _ _
theorem W4_of_ne (c : Dev nD) (b : Ref sig .tc) (hb : b ≠ main_v24) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c _ (by decide)).symm)
  | ⟨1, _⟩ => exact ((dat1 (V3 m ρ) c).arrAt_in 1 rfl _).trans ((A_eq1 (V3 m ρ) c 1).trans (W4_of_ne m ρ c _ (by decide)).symm)
  | ⟨2, _⟩ => exact ((dat1 (V3 m ρ) c).arrAt_in 2 rfl _).trans ((A_eq1 (V3 m ρ) c 2).trans (W4_of_ne m ρ c _ (by decide)).symm)
  | ⟨3, _⟩ => exact ((dat1 (V3 m ρ) c).arrAt_in 3 rfl _).trans ((A_eq1 (V3 m ρ) c 3).trans (W4_of_ne m ρ c _ (by decide)).symm)
  | ⟨4, _⟩ => exact ((dat1 (V3 m ρ) c).arrAt_in 4 rfl _).trans ((A_eq1 (V3 m ρ) c 4).trans (W4_of_ne m ρ c _ (by decide)).symm)
  | ⟨5, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨5, Finset.mem_univ _, e.symm⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer region: entered from every unscoped buffer at `W3`, left at `W4`. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs c (V4 m ρ c) : sProp 𝕄) :=
      exit1 (V3 m ρ) c (V4 m ρ c) _ (hF1 m ρ c) (hrest1 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: every weakly fair execution terminates, nothing faulting, every unscoped buffer ending at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The run with the result named: the result buffer ends at what the layer region's write-backs leave. -/
theorem run_value : θ_run defs (onTc (τ := τ) (main (F := F))) ⟨m, fun _ => 0, ρ⟩ (fun r => ∀ c : Dev nD,
      r.2.mem ((c.tc : Thread nD τ).loc main_v24) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v24 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Fr

end
-- ==== Proof.KernelIdeal.R0Base.lean ====
/-
  The degree region (the program's first kernel region): what its body's proof is stated over.
  The grid is 16 × 8; a point `t` has row block `t / 8` and column block `t % 8`. The body zeroes its
  scratch accumulator where the column block is 0, adds the block's row sums at every point, and where the column
  block is 7 stores `rsqrt (acc + 1)` (guarded) into the output block. So the output window is idle, and not
  written back, at every point whose column block is not 7.
-/
import proofs.«163696_j36515811950755_1_alg».proof.Proof.Gen.KernelIdeal.Launch
import proofs.«163696_j36515811950755_1_alg».proof.Proof.Gen.KernelIdeal.Skeleton
import proofs.«163696_j36515811950755_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "The column block is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "The column block is 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-- One staging buffer of the output window, through which its contents are stated. -/
abbrev VO0_1 : View sig .tc .vmem S1024x128 .f32 := (Memref.whole cc0_stg1_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
/-- The scratch accumulator. -/
abbrev scM0_0 : Memref sig .tc .vmem S1024x128 .f32 := Memref.whole cc0_scratch0
abbrev VS0_0 : View sig .tc .vmem S1024x128 .f32 := scM0_0.view

/-- The scoped rest with the accumulator split out. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

end Cert.KernelIdeal.Fr

end
-- ==== Proof.KernelIdeal.R0RunA.lean ====
/-
  The degree region's body at a point whose column block is 0: the accumulator is zeroed, then the block's row sums
  are added to it; nothing is stored into the output block.
-/
import proofs.«163696_j36515811950755_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun0_A (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) :
    Σ' (L1 : List (View.Piece (Elt F) S1024x128 .f32)), { LS0 : List (View.Piece (Elt F) S1024x128 .f32) //
      ∀ (xi1 : Vec F S1024x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨[], ?_, fun xi1 E K => ?run⟩
  case run =>
    simp only [cc0_degree_kernel_body_eq_skeleton]; unfold cc0_degree_kernel_body_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdeal.R0RunB.lean ====
/-
  The degree region's body at a point whose column block is neither 0 nor 7: the block's row sums are added to the
  accumulator the point before left; nothing is stored into the output block.
-/
import proofs.«163696_j36515811950755_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun0_B (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) :
    Σ' (L1 : List (View.Piece (Elt F) S1024x128 .f32)), { LS0 : List (View.Piece (Elt F) S1024x128 .f32) //
      ∀ (xi1 : Vec F S1024x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨[], ?_, fun xi1 E K => ?run⟩
  case run =>
    simp only [cc0_degree_kernel_body_eq_skeleton]; unfold cc0_degree_kernel_body_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KernelIdeal.R0RunC.lean ====
/-
  The degree region's body at a point whose column block is 7: the block's row sums are added to the accumulator the
  point before left, and the guarded inverse square root of (accumulator + 1) is stored into the output block.
-/
import proofs.«163696_j36515811950755_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator, with its triple. -/
noncomputable def kernelRun0_C (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) :
    Σ' (L1 : List (View.Piece (Elt F) S1024x128 .f32)), { LS0 : List (View.Piece (Elt F) S1024x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_degree_kernel_body i arg2 harg2 arg3 harg3 arg4 harg4) K } := by
  refine ⟨?_, ?_, fun E K => ?run⟩
  case run =>
    simp only [cc0_degree_kernel_body_eq_skeleton]; unfold cc0_degree_kernel_body_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KernelIdeal.R0.lean ====
/-
  The degree region, point by point: what the output block and the scratch accumulator hold after each grid point,
  the region's proof data, and its body obligation.
  A point with column block 0 leaves in the accumulator the block's row sums over zero; a later point adds its block's
  row sums to what the point before left; the last column block also stores the guarded inverse square root of
  (accumulator + 1) into the output block, which is written back there and only there.
-/
import proofs.«163696_j36515811950755_1_alg».proof.Proof.KernelIdeal.R0RunA
import proofs.«163696_j36515811950755_1_alg».proof.Proof.KernelIdeal.R0RunB
import proofs.«163696_j36515811950755_1_alg».proof.Proof.KernelIdeal.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) (y : S1024x128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x128.size (by sl_kernel_rfl) y

/-- The accumulator after a point with column block 0. -/
def sout0_A_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i)
    (x0 : Vec F S1024x2048 .f32) : Vec F S1024x128 .f32 :=
  VS0_0.read (Elt F) (VS0_0.writes (Elt F) VS0_0.junk (kernelRun0_A c i arg2 harg2 arg3 harg3 arg4 harg4 hc0 hc1 x0).2.1)

theorem scover0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) (y : S1024x128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x128.size (by sl_kernel_rfl) y

/-- The accumulator after a point with column block in 1..6. -/
def sout0_B_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i)
    (x0 : Vec F S1024x2048 .f32) (xs0 : Vec F S1024x128 .f32) : Vec F S1024x128 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) (y : S1024x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x128.size (by sl_kernel_rfl) y

/-- The output block after a point with column block 7. -/
def out0_C_1 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) : Vec F S1024x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) (y : S1024x128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x128.size (by sl_kernel_rfl) y

/-- The accumulator after a point with column block 7. -/
def sout0_C_0 (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i)
    (x0 : Vec F S1024x2048 .f32) (xs0 : Vec F S1024x128 .f32) : Vec F S1024x128 .f32 :=
  VS0_0.read (Elt F) (VS0_0.writes (Elt F) VS0_0.junk (kernelRun0_C c i arg2 harg2 arg3 harg3 arg4 harg4 hc0 hc1 x0 xs0).2.1)

/-! ## The cases at a grid point -/

/-- What an idle point "leaves" in the output block: nothing is consulted there. -/
def idleOut0 : Vec F S1024x128 .f32 := VO0_1.read (Elt F) VO0_1.junk

def sA0 (c : Dev nD) (t : Fin cfg0.N) (h0 : t.val % 8 = 0) (h1 : ¬t.val % 8 = 7) : Vec F S1024x128 .f32 :=
  sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)
def sB0 (c : Dev nD) (t : Fin cfg0.N) (h0 : ¬t.val % 8 = 0) (h1 : ¬t.val % 8 = 7) (xs0 : Vec F S1024x128 .f32) : Vec F S1024x128 .f32 :=
  sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs0
def sC0 (c : Dev nD) (t : Fin cfg0.N) (h0 : ¬t.val % 8 = 0) (h1 : t.val % 8 = 7) (xs0 : Vec F S1024x128 .f32) : Vec F S1024x128 .f32 :=
  sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) xs0
def oC0 (c : Dev nD) (t : Fin cfg0.N) (h0 : ¬t.val % 8 = 0) (h1 : t.val % 8 = 7) (xs0 : Vec F S1024x128 .f32) : Vec F S1024x128 .f32 :=
  out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) xs0

/-- THE ACCUMULATION: the output block and the accumulator after the body at position `n`. -/
def outsAt0 (c : Dev nD) : (n : ℕ) → n < cfg0.N → Vec F S1024x128 .f32 × Vec F S1024x128 .f32
  | 0, hn => (idleOut0, sA0 V c ⟨0, hn⟩ (Nat.zero_mod _) (show ¬(0 : ℕ) % 8 = 7 by decide))
  | n + 1, hn =>
    if h0 : (n + 1) % 8 = 0 then
      if h1 : (n + 1) % 8 = 7 then False.elim (by omega)
      else (idleOut0, sA0 V c ⟨n + 1, hn⟩ h0 h1)
    else
      if h1 : (n + 1) % 8 = 7 then
        (oC0 V c ⟨n + 1, hn⟩ h0 h1 (outsAt0 c n (Nat.lt_of_succ_lt hn)).2, sC0 V c ⟨n + 1, hn⟩ h0 h1 (outsAt0 c n (Nat.lt_of_succ_lt hn)).2)
      else
        (idleOut0, sB0 V c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sA0 V c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (oC0 V c t h0 h1 (outsAt0 V c (t.val - 1) (Nat.lt_of_le_of_lt (Nat.sub_le _ _) t.isLt)).2, sC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the other region, each whole at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0_0 fullShare d) ∗ rest0 c) ∗ (∃ r, prngReg c r)) := by
  rw [PhiA0_eq]; rfl

/-- Before the first point the scoped rest at anything; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sA0 sout0_A_0; (try dsimp only)
      by_cases hz : t.val = 0
      · rw [PhiS0_castSucc V c t, PhiS0_zero V c _ _ hz, PhiA0_eq']
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold oC0 sC0 out0_C_1 sout0_C_0; (try dsimp only)
      rw [PhiS0_castSucc V c t, PhiS0_pos V c _ _ hz]
      iintro ⟨⟨⟨HS0, HR⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sB0 sout0_B_0; (try dsimp only)
      rw [PhiS0_castSucc V c t, PhiS0_pos V c _ _ hz]
      iintro ⟨⟨⟨HS0, HR⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Fr

end
-- ==== Proof.KernelIdeal.R1Base.lean ====
/-
  The layer region (the program's second kernel region): what its body's proof is stated over.
  The grid is 32 × 4; a point `t` has row block `t / 4` and column block `t % 4`. The body zeroes its scratch
  accumulator where the column block is 0, adds the product of the adjacency block with the scaled-feature block at
  every point, and where the column block is 3 adds the row block of the scaled features, scales the rows, multiplies by
  the weights and stores the hyperbolic tangent into the output block. So the output window is idle, and not written
  back, at every point whose column block is not 3.
-/
import proofs.«163696_j36515811950755_1_alg».proof.Proof.Gen.KernelIdeal.Launch
import proofs.«163696_j36515811950755_1_alg».proof.Proof.Gen.KernelIdeal.Skeleton
import proofs.«163696_j36515811950755_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- "The column block is 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The column block is 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S512x128 .f32 := (Memref.whole cc1_stg5_0 : Memref sig .tc .vmem S512x128 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The scratch accumulator. -/
abbrev scM1_0 : Memref sig .tc .vmem S512x128 .f32 := Memref.whole cc1_scratch0
abbrev VS1_0 : View sig .tc .vmem S512x128 .f32 := scM1_0.view

/-- The other region's scoped buffers, each whole at some contents, and the generator register at some state: they ride along untouched. -/
def restG1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ r, prngReg c r))

/-- The scoped rest with the accumulator split out, -/
theorem PhiA1_split (c : Dev nD) :
    (Pipeline.ΦA spec1 c : sProp 𝕄) ⊢ iprop((∃ d, owns (c : Thread nD τ) scM1_0 fullShare d) ∗ restG1 c) := by
  unfold Pipeline.ΦA restG1; rw [scopedRest1_eq]; simp only [scM1_0, owns_whole]
  iintro ⟨⟨Ha, Hb, Hc, Hd, He, HS⟩, Hg⟩
  isplitl [HS]; · iexact HS
  isplitl [Ha]; · iexact Ha
  isplitl [Hb]; · iexact Hb
  isplitl [Hc]; · iexact Hc
  isplitl [Hd]; · iexact Hd
  isplitl [He]; · iexact He
  iexact Hg
/-- and put back. -/
theorem PhiA1_join (c : Dev nD) :
    iprop((∃ d, owns (c : Thread nD τ) scM1_0 fullShare d) ∗ restG1 c) ⊢ (Pipeline.ΦA spec1 c : sProp 𝕄) := by
  unfold Pipeline.ΦA restG1; rw [scopedRest1_eq]; simp only [scM1_0, owns_whole]
  iintro ⟨HS, Ha, Hb, Hc, Hd, He, Hg⟩
  isplitr [Hg]
  · isplitl [Ha]; · iexact Ha
    isplitl [Hb]; · iexact Hb
    isplitl [Hc]; · iexact Hc
    isplitl [Hd]; · iexact Hd
    isplitl [He]; · iexact He
    iexact HS
  iexact Hg

end Cert.KernelIdeal.Fr

end
-- ==== Proof.KernelIdeal.R1RunA.lean ====
/-
  The layer region's body at a point whose column block is 0: the accumulator is zeroed, then the product of the
  adjacency block with the scaled-feature block is added to it; nothing is stored into the output block.
-/
import proofs.«163696_j36515811950755_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun1_A (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨[], ?_, fun xi5 E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KernelIdeal.R1RunB.lean ====
/-
  The layer region's body at a point whose column block is 1 or 2: the product of the adjacency block with the
  scaled-feature block is added to the accumulator the point before left; nothing is stored into the output block.
-/
import proofs.«163696_j36515811950755_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block (none) and in the accumulator, with its triple. -/
noncomputable def kernelRun1_B (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨[], ?_, fun xi5 E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KernelIdeal.R1RunC.lean ====
/-
  The layer region's body at a point whose column block is 3: the last block product is added to the accumulator the
  point before left; then the row block of the scaled features is added, the rows are scaled, the result is multiplied by
  the weights and its hyperbolic tangent is stored into the output block.
-/
import proofs.«163696_j36515811950755_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator, with its triple. -/
noncomputable def kernelRun1_C (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_gcn_kernel_body i arg2 harg2 arg3 harg3 arg4 harg4 arg5 harg5 arg6 harg6 arg7 harg7 arg8 harg8) K } := by
  refine ⟨?_, ?_, fun E K => ?run⟩
  case run =>
    simp only [cc1_gcn_kernel_body_eq_skeleton]; unfold cc1_gcn_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KernelIdeal.R1.lean ====
/-
  The layer region, point by point: what the output block and the scratch accumulator hold after each grid point,
  the region's proof data, and its body obligation.
  A point with column block 0 leaves in the accumulator the block product over zero; a later point adds its block
  product to what the point before left; the last column block also stores the layer's output rows into the output
  block, which is written back there and only there.
-/
import proofs.«163696_j36515811950755_1_alg».proof.Proof.KernelIdeal.R1RunA
import proofs.«163696_j36515811950755_1_alg».proof.Proof.KernelIdeal.R1RunB
import proofs.«163696_j36515811950755_1_alg».proof.Proof.KernelIdeal.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) (y : S512x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x128.size (by sl_kernel_rfl) y

/-- The accumulator after a point with column block 0. -/
def sout1_A_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x4096 .f32) (x1 : Vec F S4096x128 .f32) (x2 : Vec F S512x128 .f32) (x3 : Vec F S512x128 .f32) (x4 : Vec F S128x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

theorem scover1_B_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x128.size (by sl_kernel_rfl) y

/-- The accumulator after a point with column block 1 or 2. -/
def sout1_B_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

theorem cover1_C_5 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x128.size (by sl_kernel_rfl) y

/-- The output block after a point with column block 3. -/
def out1_C_5 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x128.size (by sl_kernel_rfl) y

/-- The accumulator after a point with column block 3. -/
def sout1_C_0 (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x4096 .f32) (x1 : Vec F S4096x128 .f32) (x2 : Vec F S512x128 .f32) (x3 : Vec F S512x128 .f32) (x4 : Vec F S128x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## The cases at a grid point -/

/-- What an idle point "leaves" in the output block: nothing is consulted there. -/
def idleOut1 : Vec F S512x128 .f32 := VO1_5.read (Elt F) VO1_5.junk

def sA1 (c : Dev nD) (t : Fin cfg1.N) (h0 : t.val % 4 = 0) (h1 : ¬t.val % 4 = 3) : Vec F S512x128 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
def sB1 (c : Dev nD) (t : Fin cfg1.N) (h0 : ¬t.val % 4 = 0) (h1 : ¬t.val % 4 = 3) (xs0 : Vec F S512x128 .f32) : Vec F S512x128 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0
def sC1 (c : Dev nD) (t : Fin cfg1.N) (h0 : ¬t.val % 4 = 0) (h1 : t.val % 4 = 3) (xs0 : Vec F S512x128 .f32) : Vec F S512x128 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0
def oC1 (c : Dev nD) (t : Fin cfg1.N) (h0 : ¬t.val % 4 = 0) (h1 : t.val % 4 = 3) (xs0 : Vec F S512x128 .f32) : Vec F S512x128 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

/-- THE ACCUMULATION: the output block and the accumulator after the body at position `n`. -/
def outsAt1 (c : Dev nD) : (n : ℕ) → n < cfg1.N → Vec F S512x128 .f32 × Vec F S512x128 .f32
  | 0, hn => (idleOut1, sA1 V c ⟨0, hn⟩ (Nat.zero_mod _) (show ¬(0 : ℕ) % 4 = 3 by decide))
  | n + 1, hn =>
    if h0 : (n + 1) % 4 = 0 then
      if h1 : (n + 1) % 4 = 3 then False.elim (by omega)
      else (idleOut1, sA1 V c ⟨n + 1, hn⟩ h0 h1)
    else
      if h1 : (n + 1) % 4 = 3 then
        (oC1 V c ⟨n + 1, hn⟩ h0 h1 (outsAt1 c n (Nat.lt_of_succ_lt hn)).2, sC1 V c ⟨n + 1, hn⟩ h0 h1 (outsAt1 c n (Nat.lt_of_succ_lt hn)).2)
      else
        (idleOut1, sB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (idleOut1, sA1 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut1, sB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (oC1 V c t h0 h1 (outsAt1 V c (t.val - 1) (Nat.lt_of_le_of_lt (Nat.sub_le _ _) t.isLt)).2, sC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the scoped rest at anything; afterwards the accumulator at what the point before left. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restG1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ restG1 c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restG1 c) := by
  cases n with
  | zero => exact absurd rfl hz
  | succ n => rfl

/-! ## The proof data -/

/-- The two windows that read the scaled features share that array: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sA1 sout1_A_0; (try dsimp only)
      have hΦ : (dat1 V c).Φ t.castSucc ⊢ iprop((∃ d, owns (c : Thread nD τ) scM1_0 fullShare d) ∗ restG1 c) := by
        rw [PhiS1_castSucc V c t]
        by_cases hz : t.val = 0
        · rw [PhiS1_zero V c _ _ hz]; exact PhiA1_split c
        · rw [PhiS1_pos V c _ _ hz]
          iintro ⟨HS0, HR⟩
          isplitl [HS0]; · iexists _; iexact HS0
          iexact HR
      refine (sep_mono hΦ .rfl).trans ?_
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold oC1 sC1 out1_C_5 sout1_C_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sB1 sout1_B_0; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_join c)
  iintro ⟨HS0, HR⟩
  isplitl [HS0]
  · iexists _; iexact HS0
  iexact HR

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KernelIdeal.R1Arrays.lean ====
/-
  The layer region's arrays at its entry and exit.
  Two of its input windows — the column blocks and the row blocks of the scaled features — read ONE array, so that
  array is held in two halves, one per window; the other four arrays are held whole. At entry the core's unscoped
  buffers split into the six windows' arrays (the shared one halved) and the rest; at exit they are joined again, the
  output's array at what the write-backs left.
-/
import proofs.«163696_j36515811950755_1_alg».proof.Proof.KernelIdeal.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the six windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v19) ↦{fullShare} V' main_v19) ∗ (((c : Thread nD τ).loc main_v23) ↦{fullShare} V' main_v23)
          ∗ (((c : Thread nD τ).loc main_v20) ↦{fullShare} V' main_v20) ∗ (((c : Thread nD τ).loc main_arg2) ↦{fullShare} V' main_arg2)
          ∗ (((c : Thread nD τ).loc main_v24) ↦{fullShare} V' main_v24)) := by
  unfold Pipeline.arrBufs
  exact bigSep_eq_bigSepL_of_eq [main_v19, main_v23, main_v20, main_arg2, main_v24] (by decide) (by decide) _

/-- The windows' arrays, one by one: whole buffers, the shared one in halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v19) ↦{fullShare} G 0) ∗ (((c : Thread nD τ).loc main_v23) ↦{fullShare.left} G 1)
          ∗ (((c : Thread nD τ).loc main_v23) ↦{fullShare.right} G 2) ∗ (((c : Thread nD τ).loc main_v20) ↦{fullShare} G 3)
          ∗ (((c : Thread nD τ).loc main_arg2) ↦{fullShare} G 4) ∗ (((c : Thread nD τ).loc main_v24) ↦{fullShare} G 5)) := by
  unfold Dat.arrays
  rw [bigSep_W1]
  rw [(arr_whole1 0).set_eq_univ, (arr_whole1 1).set_eq_univ, (arr_whole1 3).set_eq_univ, (arr_whole1 4).set_eq_univ, (arr_whole1 5).set_eq_univ]
  rfl

/-- ENTRY: the core's unscoped buffers are the region's arrays at their entry contents and the rest. -/
theorem entry1 (c : Dev nD) :
    (unscopedBufs c (V c) : sProp 𝕄)
      ⊢ iprop((dat1 V c).arrays (fun w => (dat1 V c).arrAt w 0) ∗ Pipeline.unscopedRest (Ix := Unit) (Name := ℕ) (U := UR sig nD τ) (Lvl := ℕ) spec1 c (V c)) := by
  rw [show (unscopedBufs c (V c) : sProp 𝕄) = iprop(Pipeline.arrBufs spec1 c (V c) ∗ Pipeline.unscopedRest spec1 c (V c)) from Pipeline.unscopedBufs_split₀ cfgs 1 winFacts₀1.arr_unscoped c (V c), arrBufs1_eq, arrays1_eq]
  iintro ⟨⟨H19, H23, H20, Ha2, H24⟩, Hrest⟩
  ihave H23' := (pointsTo_share (PosShare.mem_left_op_right fullShare)).1 $$ H23
  icases H23' with ⟨H23l, H23r⟩
  isplitr [Hrest]
  · isplitl [H19]; · iexact H19
    isplitl [H23l]; · iexact H23l
    isplitl [H23r]; · iexact H23r
    isplitl [H20]; · iexact H20
    isplitl [Ha2]; · iexact Ha2
    iexact H24
  iexact Hrest

/-- EXIT: the region's arrays at contents `G` and the rest are the core's unscoped buffers at any valuation that has the
    arrays at `G` and agrees with the entry valuation off them. -/
theorem exit1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  rw [show (unscopedBufs c V' : sProp 𝕄) = iprop(Pipeline.arrBufs spec1 c V' ∗ Pipeline.unscopedRest spec1 c V') from Pipeline.unscopedBufs_split₀ cfgs 1 winFacts₀1.arr_unscoped c V', arrBufs1_eq, arrays1_eq]
  rw [hG 0, hG 1, hG 2, hG 3, hG 4, hG 5]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨H19, H23l, H23r, H20, Ha2, H24⟩, Hrest⟩
  isplitr [Hrest]
  · isplitl [H19]; · iexact H19
    isplitl [H23l H23r]
    · iapply (pointsTo_share (PosShare.mem_left_op_right fullShare)).2
      isplitl [H23l]; · iexact H23l
      iexact H23r
    isplitl [H20]; · iexact H20
    isplitl [Ha2]; · iexact Ha2
    iexact H24
  iexact Hrest

end Cert.KernelIdeal.Fr

end
-- ==== Proof.KernelIdeal.Frame.lean ====
/-
  The whole run: the host operations that build the adjacency, the degree region, the host operations that scale the
  features, the layer region. The buffer contents at each boundary are a fold from the launch memory: a stretch of host
  operations applies them; a region leaves its inputs as entered and its output at what the write-backs leave. No
  stretch and no region writes an argument, and the result buffer ends at what the layer region's write-backs leave.
-/
import proofs.«163696_j36515811950755_1_alg».proof.Proof.KernelIdeal.R0
import proofs.«163696_j36515811950755_1_alg».proof.Proof.KernelIdeal.R1Arrays
import proofs.«163696_j36515811950755_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations that build the adjacency (the degree region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the degree region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations that scale the features (the layer region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the layer region's exit: the result buffer at what the write-backs leave, every other buffer as entered. -/
def W4 (c : Dev nD) : Valuation τ sig (Elt F) :=
  Function.update (W3 m ρ c) (Proc.devRef .tc main_v24) ((dat1 (V3 m ρ) c).arrAt 5 cfg1.N)
theorem W4_out (c : Dev nD) : W4 m ρ c (Proc.devRef .tc main_v24) = (dat1 (V3 m ρ) c).arrAt 5 cfg1.N := by
  unfold W4; exact Function.update_self _ _ _
theorem W4_of_ne (c : Dev nD) (b : Ref sig .tc) (hb : b ≠ main_v24) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c _ (by decide)).symm)
  | ⟨1, _⟩ => exact ((dat1 (V3 m ρ) c).arrAt_in 1 rfl _).trans ((A_eq1 (V3 m ρ) c 1).trans (W4_of_ne m ρ c _ (by decide)).symm)
  | ⟨2, _⟩ => exact ((dat1 (V3 m ρ) c).arrAt_in 2 rfl _).trans ((A_eq1 (V3 m ρ) c 2).trans (W4_of_ne m ρ c _ (by decide)).symm)
  | ⟨3, _⟩ => exact ((dat1 (V3 m ρ) c).arrAt_in 3 rfl _).trans ((A_eq1 (V3 m ρ) c 3).trans (W4_of_ne m ρ c _ (by decide)).symm)
  | ⟨4, _⟩ => exact ((dat1 (V3 m ρ) c).arrAt_in 4 rfl _).trans ((A_eq1 (V3 m ρ) c 4).trans (W4_of_ne m ρ c _ (by decide)).symm)
  | ⟨5, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨5, Finset.mem_univ _, e.symm⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer region: entered from every unscoped buffer at `W3`, left at `W4`. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V3 m ρ c))
        ⊢ (unscopedBufs c (V4 m ρ c) : sProp 𝕄) :=
      exit1 (V3 m ρ) c (V4 m ρ c) _ (hF1 m ρ c) (hrest1 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- THE RUN: every weakly fair execution terminates, nothing faulting, every unscoped buffer ending at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The run with the result named: the result buffer ends at what the layer region's write-backs leave. -/
theorem run_value : θ_run defs (onTc (τ := τ) (main (F := F))) ⟨m, fun _ => 0, ρ⟩ (fun r => ∀ c : Dev nD,
      r.2.mem ((c.tc : Thread nD τ).loc main_v24) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v24 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Fr

end
-- ==== Proof.KernelIdeal.R0Val.lean ====
/-
  The degree region's cases as values: a point leaves in the accumulator the block's row sums added to what it found
  (zero, at the first column block), and the last column block stores the guarded inverse square root of
  (accumulator + 1).
-/
import proofs.«163696_j36515811950755_1_alg».proof.Proof.KernelIdeal.R0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

theorem sout0_A_0_eq (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : cond0_0 i) (hc1 : ¬cond0_1 i) (x0 : Vec F S1024x2048 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1024x128) hz2, View.readCov_unit_zero (S := S1024x128) _ hz2]
  simp only [View.readAt_eq_ld, harg2.read_unread, View.ld_unit_zero (S := S1024x2048) hz2]

theorem sout0_B_0_eq (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : ¬cond0_1 i) (x0 : Vec F S1024x2048 .f32) (xs0 : Vec F S1024x128 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg2.read_unread, harg4.read_unread, View.ld_unit_zero (S := S1024x2048) hz2, View.ld_unit_zero (S := S1024x128) hz2]

theorem sout0_C_0_eq (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i) (x0 : Vec F S1024x2048 .f32) (xs0 : Vec F S1024x128 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S1024x2048) hz2, View.ld_unit_zero (S := S1024x128) hz2]

theorem out0_C_1_eq (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S1024x128 .f32) (harg4 : arg4.IsWhole) (hc0 : ¬cond0_0 i) (hc1 : cond0_1 i) (x0 : Vec F S1024x2048 .f32) (xs0 : Vec F S1024x128 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz2, View.readCov_unit_zero (S := S1024x128) _ hz2]
  simp only [View.readAt_eq_ld, harg2.read_unread, harg4.read_unread, View.ld_unit_zero (S := S1024x2048) hz2, View.ld_unit_zero (S := S1024x128) hz2]

/-- The accumulator after point `n`: the running sum of the blocks' row sums since the last reset. -/
def acc0 (c : Dev nD) : (n : ℕ) → n < cfg0.N → Vec F S1024x128 .f32
  | 0, h => k0_pay2 (iblk0 V c 0 ⟨0, h⟩) (k0_pay1 (F := F))
  | n + 1, h => if (n + 1) % 8 = 0 then k0_pay2 (iblk0 V c 0 ⟨n + 1, h⟩) (k0_pay1 (F := F))
      else k0_pay2 (iblk0 V c 0 ⟨n + 1, h⟩) (acc0 c n (Nat.lt_of_succ_lt h))

theorem outsAt0_snd (c : Dev nD) : ∀ (n : ℕ) (h : n < cfg0.N), (outsAt0 V c n h).2 = acc0 V c n h
  | 0, h => by
    rw [outsAt0_A V c ⟨0, h⟩ (Nat.zero_mod _) (show ¬(0 : ℕ) % 8 = 7 by decide)]
    dsimp only; unfold sA0; rw [sout0_A_0_eq]; rfl
  | n + 1, h => by
    have hN : cfg0.N = 128 := N_0
    by_cases h0 : (n + 1) % 8 = 0
    · have h1 : ¬(n + 1) % 8 = 7 := by omega
      rw [outsAt0_A V c ⟨n + 1, h⟩ h0 h1]
      dsimp only; unfold sA0; rw [sout0_A_0_eq, acc0, if_pos h0]
    · by_cases h1 : (n + 1) % 8 = 7
      · rw [outsAt0_C V c ⟨n + 1, h⟩ h0 h1]
        dsimp only; unfold sC0; rw [sout0_C_0_eq, acc0, if_neg h0]
        show k0_pay2 _ (outsAt0 V c n _).2 = _
        rw [outsAt0_snd c n]
      · rw [outsAt0_B V c ⟨n + 1, h⟩ h0 h1]
        dsimp only; unfold sB0; rw [sout0_B_0_eq, acc0, if_neg h0]
        show k0_pay2 _ (outsAt0 V c n _).2 = _
        rw [outsAt0_snd c n]

/-- What a point with column block 7 stores into the output block. -/
theorem outsAt0_fst (c : Dev nD) (t : Fin cfg0.N) (h1 : t.val % 8 = 7) :
    (outsAt0 V c t.val t.isLt).1 = k0_pay3 (acc0 V c t.val t.isLt) := by
  have h0 : ¬t.val % 8 = 0 := by omega
  rw [outsAt0_C V c t h0 h1]
  dsimp only; unfold oC0; rw [out0_C_1_eq]
  have hz : t.val ≠ 0 := fun e => h0 (by rw [e])
  obtain ⟨n, hn⟩ := t
  cases n with
  | zero => exact absurd rfl hz
  | succ n =>
    rw [acc0, if_neg h0]
    show k0_pay3 (k0_pay2 _ (outsAt0 V c n _).2) = _
    rw [outsAt0_snd V c n]

end Cert.KernelIdeal.Fr

end
-- ==== Proof.Spec.lean ====
/-
  The layer's value, index by index, on the extended reals, as the tiled program computes it.

  For a square 0/1 matrix `A` (the adjacency), node features `x` and weights `W`:
    deg r      = (Σ_j A r j) + 1                       -- the self loop counted once
    dis r      = rsqrt (deg r) where deg r > 0, else 0
    xs j c     = x j c · dis j                          -- columns scaled
    h r c      = (Σ_j A r j · xs j c) + xs r c           -- (A + I) · xs
    ax r c     = h r c · dis r                          -- rows scaled
    out r c    = tanh (Σ_k ax r k · W k c)
-/
import Idealize.ShloMosaic.PureOps.Ideal
import Idealize.ShloMosaic.Lib.ValueIdx

noncomputable section

open scoped BigOperators

namespace Cert.GcnSpec

open Idealize.ShloMosaic

/-- The f32 patterns of 0 and 1 as extended reals. -/
abbrev zero32 : EReal := Ideal.ofBits .f32 0x00000000#32
abbrev one32 : EReal := Ideal.ofBits .f32 0x3F800000#32

/-- `rsqrt d` where `d > 0`, else `0`: the guarded inverse square root of a degree. -/
def dsel (d : EReal) : EReal :=
  Scalar.select (Ideal.cmp .ogt d zero32) (Ideal.rsqrt d) zero32

variable (A : Fin 16384 → Fin 16384 → EReal) (x : Fin 16384 → Fin 128 → EReal) (W : Fin 128 → Fin 128 → EReal)

/-- Row degree with the self loop. -/
def deg (r : Fin 16384) : EReal := (∑ j, A r j) + one32
/-- `D^{-1/2}` on the diagonal. -/
def dis (r : Fin 16384) : EReal := dsel (deg A r)
/-- The features with row `j` scaled by `dis j`. -/
def xs (j : Fin 16384) (c : Fin 128) : EReal := x j c * dis A j
/-- `(A + I) · xs`. -/
def hsum (r : Fin 16384) (c : Fin 128) : EReal := (∑ j, A r j * xs A x j c) + xs A x r c
/-- Rows scaled again. -/
def ax (r : Fin 16384) (c : Fin 128) : EReal := hsum A x r c * dis A r
/-- The layer's output. -/
def out (r : Fin 16384) (c : Fin 128) : EReal := Ideal.tanh (∑ k, ax A x r k * W k c)

end Cert.GcnSpec

end
-- ==== Proof.KernelIdeal.R0Ideal.lean ====
/-
  The degree region's payloads read at an index, on the extended reals: a point adds to the accumulator, in every lane of
  row `r`, the sum of the adjacency block's row `r`; the last column block stores the guarded inverse square root of
  (accumulator + 1).
-/
import proofs.«163696_j36515811950755_1_alg».proof.Proof.KernelIdeal.R0Val
import proofs.«163696_j36515811950755_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero block. -/
theorem pay1_apply (j : S1024x128.Idx) : k0_pay1 (F := Ideal) j = 0 := by
  unfold k0_pay1
  simp only [shapeCast_self]
  show Ideal.ofBits .f32 0x00000000#32 = 0
  exact Ideal.ofBits_zero_f32

/-- A column of row sums broadcast over the lanes. -/
theorem col_apply (v : FVec Ideal S1024 .f32) (h1 : S1024.ShapeCasts S1024x1) (h3 : S1024x1.Broadcasts S1024x128)
    (r : Fin 1024) (l : Fin 128) :
    broadcastTo S1024x128 (shapeCast S1024x1 v h1) h3 (ix2 r l) = v (ix1 r) := by
  rw [broadcastTo_apply _ h3 (ix2 r l) (ix2 r (0 : Fin 1)) (fun a => by match a with | ⟨0, _⟩ => rfl | ⟨1, _⟩ => rfl)]
  exact shapeCast_apply v h1 (ix2 r (0 : Fin 1)) (ix1 r) (by rw [Shape.rowMajor_val_one, Shape.rowMajor_val_two]; show r.val = r.val * 1 + 0; omega)

/-- The accumulation step at an index. -/
theorem pay2_apply (x0 : Vec Ideal S1024x2048 .f32) (v7 : Vec Ideal S1024x128 .f32) (r : Fin 1024) (l : Fin 128) :
    k0_pay2 x0 v7 (ix2 r l) = v7 (ix2 r l) + ∑ j : Fin 2048, x0 (ix2 r j) := by
  unfold k0_pay2
  simp only [shapeCast_self]
  show v7 (ix2 r l) + broadcastTo S1024x128 (shapeCast S1024x1 _ _) _ (ix2 r l) = _
  refine congrArg (v7 (ix2 r l) + ·) ?_
  refine (col_apply _ _ _ r l).trans ?_
  refine (Ideal.multiReduction_add_single (φ := .f32) (s := S1024x2048) (t := S1024) (a := (1 : Fin 2)) x0 0x00000000#32 reduces_S1024x2048_S1024 _ _ (ix1 r)).trans ?_
  refine Finset.sum_congr rfl fun j _ => congrArg x0 ?_
  funext a
  match a with
  | ⟨0, _⟩ => rfl
  | ⟨1, _⟩ => rfl

/-- The stored value at an index. -/
theorem pay3_apply (v17 : Vec Ideal S1024x128 .f32) (j : S1024x128.Idx) :
    k0_pay3 v17 j = Cert.GcnSpec.dsel (v17 j + Cert.GcnSpec.one32) := by
  unfold k0_pay3 Cert.GcnSpec.dsel
  rfl

end Cert.KernelIdeal.Fr

end
-- ==== Proof.LibBlockedSum.lean ====
/-
  Sums cut into consecutive blocks, over any additive commutative monoid (so also over the extended reals, where
  addition is associative and commutative although it is not cancellative).

  * `sum_blocks`: a sum over `Fin n` with `n = a * b` is the sum over the `a` blocks of the sums over the `b`
    positions inside a block; position `j` of block `s` is the index `b * s + j`.
  * `add_sum_pair`: a start value to which each block adds two terms, one after the other, is the start value
    plus the whole first sum plus the whole second sum.
-/
import Mathlib.Algebra.BigOperators.Fin
import Mathlib.Algebra.BigOperators.Group.Finset.Basic
import Mathlib.Logic.Equiv.Fin.Basic

open scoped BigOperators

namespace BlockedSum

variable {M : Type*} [AddCommMonoid M]

/-- A sum over `a * b` consecutive naturals, taken block by block: `a` blocks of `b` positions each, position `j` of
    block `s` being `b * s + j`. The summand is a function of the natural number, so no bound proof travels. -/
theorem sum_blocks (a b n : ℕ) (h : a * b = n) (g : ℕ → M) :
    ∑ s ∈ Finset.range a, ∑ j : Fin b, g (b * s + j.val) = ∑ k : Fin n, g k.val := by
  subst h
  rw [Finset.sum_range (fun s => ∑ j : Fin b, g (b * s + j.val))]
  rw [← Equiv.sum_comp finProdFinEquiv (fun k : Fin (a * b) => g k.val), Fintype.sum_prod_type]
  refine Finset.sum_congr rfl fun s _ => Finset.sum_congr rfl fun j _ => ?_
  show g (b * s.val + j.val) = g (j.val + b * s.val)
  rw [Nat.add_comm]

/-- Adding, block after block, first the block's `A` term and then its `B` term to a start value `z` gives `z` plus
    all the `A` terms plus all the `B` terms: only associativity and commutativity of the addition are used. -/
theorem add_sum_pair (z : M) (A B : ℕ → M) (a : ℕ) :
    z + ∑ s ∈ Finset.range a, (A s + B s) = (z + ∑ s ∈ Finset.range a, A s) + ∑ s ∈ Finset.range a, B s := by
  rw [Finset.sum_add_distrib, add_assoc]

end BlockedSum
-- ==== Proof.KernelIdeal.R0Sum.lean ====
/-
  The degree region's result: after the eight column blocks of a row block the accumulator holds, in every lane of row
  `r`, the sum of the adjacency's whole row (the eight block sums are the row's sum cut into consecutive blocks), so the
  array written back holds `dis` of the row in every lane.
-/
import proofs.«163696_j36515811950755_1_alg».proof.Proof.KernelIdeal.R0Ideal
import proofs.«163696_j36515811950755_1_alg».proof.Proof.LibBlockedSum
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-- The adjacency as the region finds it, by coordinates. -/
def adj (c : Dev nD) (r j : Fin 16384) : EReal := (V c main_v19 : S16384x16384.Idx → EReal) (ix2 r j)

/-- Row `r` of the adjacency as a function of the natural column (zero past the end). -/
def adjN (c : Dev nD) (r : Fin 16384) (k : ℕ) : EReal := if h : k < 16384 then adj V c r ⟨k, h⟩ else 0

theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

theorem lt128 (t : Fin cfg0.N) : t.val < 128 := lt_of_lt_of_eq t.isLt N_0

/-- Row `r` of the row block of point `t`. -/
def rowOf (t : Fin cfg0.N) (r : Fin 1024) : Fin 16384 := ⟨1024 * (t.val / 8) + r.val, by have := lt128 t; omega⟩

/-- The input block of point `t` is rows `1024·(t/8) …`, columns `2048·(t%8) …` of the adjacency. -/
theorem iblk0_apply (c : Dev nD) (t : Fin cfg0.N) (r : Fin 1024) (j : Fin 2048) :
    (iblk0 V c 0 t : Vec Ideal S1024x2048 .f32) (ix2 r j) = adjN V c (rowOf t r) (2048 * (t.val % 8) + j.val) := by
  have ht := lt128 t
  unfold adjN
  rw [dif_pos (by omega)]
  unfold adj iblk0
  rw [View.read_apply]
  show (V c main_v19 : S16384x16384.Idx → EReal) _ = (V c main_v19 : S16384x16384.Idx → EReal) _
  refine congrArg _ ?_
  funext a
  apply Fin.ext
  match a with
  | ⟨0, _⟩ => show win0_0.index t 0 * 1024 + 1 * r.val = 1024 * (t.val / 8) + r.val; rw [(idx0_0 t).1]; omega
  | ⟨1, _⟩ => show win0_0.index t 1 * 2048 + 1 * j.val = 2048 * (t.val % 8) + j.val; rw [(idx0_0 t).2]; omega

/-- THE RUNNING SUM: after point `n` the accumulator holds, in every lane of row `r`, the row's sum over the column blocks
    done so far. -/
theorem acc0_apply (c : Dev nD) : ∀ (n : ℕ) (h : n < cfg0.N) (r : Fin 1024) (l : Fin 128),
    acc0 V c n h (ix2 r l) = ∑ s ∈ Finset.range (n % 8 + 1), ∑ j : Fin 2048, adjN V c (rowOf ⟨n, h⟩ r) (2048 * s + j.val)
  | 0, h, r, l => by
    rw [acc0, pay2_apply, pay1_apply, zero_add]
    show _ = ∑ s ∈ Finset.range 1, _
    rw [Finset.sum_range_one]
    exact Finset.sum_congr rfl fun j _ => iblk0_apply V c ⟨0, h⟩ r j
  | n + 1, h, r, l => by
    have hN := lt128 ⟨n + 1, h⟩
    rw [acc0]
    by_cases h0 : (n + 1) % 8 = 0
    · rw [if_pos h0, pay2_apply, pay1_apply, zero_add, h0]
      show _ = ∑ s ∈ Finset.range 1, _
      rw [Finset.sum_range_one]
      refine Finset.sum_congr rfl fun j _ => (iblk0_apply V c ⟨n + 1, h⟩ r j).trans ?_
      show adjN V c _ (2048 * ((n + 1) % 8) + j.val) = _
      rw [h0]
    · rw [if_neg h0, pay2_apply, acc0_apply c n (Nat.lt_of_succ_lt h) r l]
      have e1 : (n + 1) % 8 = n % 8 + 1 := by omega
      have e2 : rowOf ⟨n, Nat.lt_of_succ_lt h⟩ r = rowOf ⟨n + 1, h⟩ r := Fin.ext (by show 1024 * (n / 8) + r.val = 1024 * ((n + 1) / 8) + r.val; omega)
      rw [e1, Finset.sum_range_succ _ (n % 8 + 1), e2]
      refine congrArg (_ + ·) ?_
      refine Finset.sum_congr rfl fun j _ => (iblk0_apply V c ⟨n + 1, h⟩ r j).trans ?_
      show adjN V c _ (2048 * ((n + 1) % 8) + j.val) = _
      rw [e1]

/-- A whole row's sum from its eight blocks. -/
theorem row_sum (c : Dev nD) (R : Fin 16384) :
    ∑ s ∈ Finset.range 8, ∑ j : Fin 2048, adjN V c R (2048 * s + j.val) = ∑ j : Fin 16384, adj V c R j := by
  rw [BlockedSum.sum_blocks 8 2048 16384 (by norm_num) (adjN V c R)]
  exact Finset.sum_congr rfl fun k _ => by unfold adjN; rw [dif_pos k.isLt]

/-- What the last column block stores: `dis` of the row, in every lane. -/
theorem out0_apply (c : Dev nD) (t : Fin cfg0.N) (h1 : t.val % 8 = 7) (r : Fin 1024) (l : Fin 128) :
    (outsAt0 V c t.val t.isLt).1 (ix2 r l) = Cert.GcnSpec.dis (adj V c) (rowOf t r) := by
  rw [outsAt0_fst V c t h1, pay3_apply, acc0_apply V c t.val t.isLt r l, h1]
  show Cert.GcnSpec.dsel (∑ s ∈ Finset.range 8, _ + _) = _
  rw [row_sum]
  rfl

/-- The degree region's result array: `dis` of the row in every lane. -/
def disArr (c : Dev nD) : S16384x128.Idx → EReal := fun i => Cert.GcnSpec.dis (adj V c) (i 0)

end Cert.KernelIdeal.Fr

end
-- ==== Proof.KernelIdeal.R0Final.lean ====
/-
  The degree region's result array: every write-back (one per row block, after its last column block) writes rows
  `1024·p … 1024·p + 1023` of the function "`dis` of the row in every lane", and the sixteen row blocks cover the array.
-/
import proofs.«163696_j36515811950755_1_alg».proof.Proof.KernelIdeal.R0Sum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

theorem idx0_1 : ∀ t : Fin cfg0.N, win0_1.index t 0 = t.val / 8 ∧ win0_1.index t 1 = 0 :=
  (by decide +kernel : ∀ t : Fin grid0.N, win0_1.index t 0 = t.val / 8 ∧ win0_1.index t 1 = 0)

/-- What the last column block stores, at any index of the block. -/
theorem out0_apply' (c : Dev nD) (t : Fin cfg0.N) (h1 : t.val % 8 = 7) (y : S1024x128.Idx) :
    (outsAt0 V c t.val t.isLt).1 y = Cert.GcnSpec.dis (adj V c) (rowOf t (y 0)) :=
  (congrArg (outsAt0 V c t.val t.isLt).1 (eq_ix2 y)).trans (out0_apply V c t h1 (y 0) (y 1))

/-- What a flushing point writes back is its block of `disArr`. -/
theorem flushed0_eq (c : Dev nD) (t : Fin cfg0.N) (hf : (cfg0.win 1).flush t = true) :
    (dat0 V c).flushed 1 t = ((cfg0.win 1).blk t).view.read (Elt Ideal) (disArr V c) := by
  have h7 : t.val % 8 = 7 := (flush0_1 t).mp hf
  show (cfg0.win 1).cut (grid0.coords t) ((dat0 V c).after 1 t) = _
  rw [after0_1]
  funext y
  rw [View.read_apply]
  show (outsAt0 V c t.val t.isLt).1 ((cfg0.win 1).xinj (grid0.coords t) y) = _
  rw [out0_apply' V c t h7 _]
  have e : rowOf t ((cfg0.win 1).xinj (grid0.coords t) y 0) = (((cfg0.win 1).blk t).view.emb y) 0 := Fin.ext (by
    show 1024 * (t.val / 8) + (y 0).val = win0_1.index t 0 * 1024 + 1 * (y 0).val
    rw [(idx0_1 t).1]; omega)
  rw [e]
  unfold disArr
  exact (cast_eq _ _).symm

theorem mem_blk0_1 (t : Fin cfg0.N) (i : S16384x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v20).slice (win0_1.rect t)).set ↔ _
  rw [View.set_slice_whole, Rect.mem_set_unit]
  exact Iff.rfl

/-- The result array of the degree region. -/
theorem final0 (c : Dev nD) : (dat0 V c).arrAt 1 cfg0.N = disArr V c :=
  (dat0 V c).arrAt_eq_of_cover 1 (disArr V c) (flushed0_eq V c) fun i => by
    have hi0 : (i 0).val < 16384 := (i 0).isLt
    have hi1 : (i 1).val < 128 := (i 1).isLt
    have hN : cfg0.N = 128 := N_0
    refine ⟨⟨8 * ((i 0).val / 1024) + 7, by rw [hN]; omega⟩, (flush0_1 _).mpr (by show (8 * ((i 0).val / 1024) + 7) % 8 = 7; omega), ?_⟩
    rw [mem_blk0_1]
    intro a
    have e := idx0_1 ⟨8 * ((i 0).val / 1024) + 7, by rw [hN]; omega⟩
    match a with
    | ⟨0, _⟩ =>
      show win0_1.index _ 0 * 1024 ≤ (i 0).val ∧ (i 0).val < win0_1.index _ 0 * 1024 + 1024
      rw [e.1]; show (8 * ((i 0).val / 1024) + 7) / 8 * 1024 ≤ _ ∧ _ < (8 * ((i 0).val / 1024) + 7) / 8 * 1024 + 1024; omega
    | ⟨1, _⟩ =>
      show win0_1.index _ 1 * 128 ≤ (i 1).val ∧ (i 1).val < win0_1.index _ 1 * 128 + 128
      rw [e.2]; omega

end Cert.KernelIdeal.Fr

end
-- ==== Proof.KernelIdeal.R1Val.lean ====
/-
  The layer region's cases as values: a point leaves in the accumulator the product of the adjacency block with the
  scaled-feature block added to what it found (zero, at the first column block), and the last column block stores the
  layer's output rows computed from the accumulator.
-/
import proofs.«163696_j36515811950755_1_alg».proof.Proof.KernelIdeal.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2' : (![0, 0] : Fin 2 → Nat) = fun _ => 0 := funext fun a => by fin_cases a <;> rfl
local notation "hz2" => hz2'

theorem sout1_A_0_eq (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i) (x0 : Vec F S512x4096 .f32) (x1 : Vec F S4096x128 .f32) (x2 : Vec F S512x128 .f32) (x3 : Vec F S512x128 .f32) (x4 : Vec F S128x128 .f32) :
    sout1_A_0 c i arg2 harg2 arg3 harg3 arg4 harg4 arg5 harg5 arg6 harg6 arg7 harg7 arg8 harg8 hc0 hc1 x0 x1 x2 x3 x4 = k1_pay2 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S512x128) hz2, View.readCov_unit_zero (S := S512x128) _ hz2]
  simp only [View.readAt_eq_ld, harg2.read_unread, harg3.read_unread, harg4.read_unread, harg5.read_unread, harg6.read_unread, harg8.read_unread, View.ld_unit_zero (S := S512x4096) hz2, View.ld_unit_zero (S := S4096x128) hz2, View.ld_unit_zero (S := S512x128) hz2, View.ld_unit_zero (S := S128x128) hz2]

theorem sout1_B_0_eq (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i) (x0 : Vec F S512x4096 .f32) (x1 : Vec F S4096x128 .f32) (x2 : Vec F S512x128 .f32) (x3 : Vec F S512x128 .f32) (x4 : Vec F S128x128 .f32) (xs0 : Vec F S512x128 .f32) :
    sout1_B_0 c i arg2 harg2 arg3 harg3 arg4 harg4 arg5 harg5 arg6 harg6 arg7 harg7 arg8 harg8 hc0 hc1 x0 x1 x2 x3 x4 xs0 = k1_pay2 x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero hz2]
  simp only [View.readAt_eq_ld, harg2.read_unread, harg3.read_unread, harg4.read_unread, harg5.read_unread, harg6.read_unread, harg8.read_unread, View.ld_unit_zero (S := S512x4096) hz2, View.ld_unit_zero (S := S4096x128) hz2, View.ld_unit_zero (S := S512x128) hz2, View.ld_unit_zero (S := S128x128) hz2]

theorem sout1_C_0_eq (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x4096 .f32) (x1 : Vec F S4096x128 .f32) (x2 : Vec F S512x128 .f32) (x3 : Vec F S512x128 .f32) (x4 : Vec F S128x128 .f32) (xs0 : Vec F S512x128 .f32) :
    sout1_C_0 c i arg2 harg2 arg3 harg3 arg4 harg4 arg5 harg5 arg6 harg6 arg7 harg7 arg8 harg8 hc0 hc1 x0 x1 x2 x3 x4 xs0 = k1_pay2 x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg5.read_unread, harg6.read_unread, harg8.read_unread, View.ld_unit_zero (S := S512x4096) hz2, View.ld_unit_zero (S := S4096x128) hz2, View.ld_unit_zero (S := S512x128) hz2, View.ld_unit_zero (S := S128x128) hz2]

theorem out1_C_5_eq (c : Dev nD) (i : grid1.Coords) (arg2 : Memref sig .tc .vmem S512x4096 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x4096 .f32) (x1 : Vec F S4096x128 .f32) (x2 : Vec F S512x128 .f32) (x3 : Vec F S512x128 .f32) (x4 : Vec F S128x128 .f32) (xs0 : Vec F S512x128 .f32) :
    out1_C_5 c i arg2 harg2 arg3 harg3 arg4 harg4 arg5 harg5 arg6 harg6 arg7 harg7 arg8 harg8 hc0 hc1 x0 x1 x2 x3 x4 xs0 = k1_pay3 (k1_pay2 x0 x1 xs0) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2, View.readCov_unit_zero (S := S512x128) _ hz2]
  simp only [View.readAt_eq_ld, harg2.read_unread, harg3.read_unread, harg4.read_unread, harg5.read_unread, harg6.read_unread, harg8.read_unread, View.ld_unit_zero (S := S512x4096) hz2, View.ld_unit_zero (S := S4096x128) hz2, View.ld_unit_zero (S := S512x128) hz2, View.ld_unit_zero (S := S128x128) hz2]

/-- The accumulator after point `n`: the running sum of the block products since the last reset. -/
def acc1 (c : Dev nD) : (n : ℕ) → n < cfg1.N → Vec F S512x128 .f32
  | 0, h => k1_pay2 (iblk1 V c 0 ⟨0, h⟩) (iblk1 V c 1 ⟨0, h⟩) (k1_pay1 (F := F))
  | n + 1, h => if (n + 1) % 4 = 0 then k1_pay2 (iblk1 V c 0 ⟨n + 1, h⟩) (iblk1 V c 1 ⟨n + 1, h⟩) (k1_pay1 (F := F))
      else k1_pay2 (iblk1 V c 0 ⟨n + 1, h⟩) (iblk1 V c 1 ⟨n + 1, h⟩) (acc1 c n (Nat.lt_of_succ_lt h))

theorem outsAt1_snd (c : Dev nD) : ∀ (n : ℕ) (h : n < cfg1.N), (outsAt1 V c n h).2 = acc1 V c n h
  | 0, h => by
    rw [outsAt1_A V c ⟨0, h⟩ (Nat.zero_mod _) (show ¬(0 : ℕ) % 4 = 3 by decide)]
    dsimp only; unfold sA1; rw [sout1_A_0_eq]; rfl
  | n + 1, h => by
    have hN : cfg1.N = 128 := N_1
    by_cases h0 : (n + 1) % 4 = 0
    · have h1 : ¬(n + 1) % 4 = 3 := by omega
      rw [outsAt1_A V c ⟨n + 1, h⟩ h0 h1]
      dsimp only; unfold sA1; rw [sout1_A_0_eq, acc1, if_pos h0]
    · by_cases h1 : (n + 1) % 4 = 3
      · rw [outsAt1_C V c ⟨n + 1, h⟩ h0 h1]
        dsimp only; unfold sC1; rw [sout1_C_0_eq, acc1, if_neg h0]
        show k1_pay2 _ _ (outsAt1 V c n _).2 = _
        rw [outsAt1_snd c n]
      · rw [outsAt1_B V c ⟨n + 1, h⟩ h0 h1]
        dsimp only; unfold sB1; rw [sout1_B_0_eq, acc1, if_neg h0]
        show k1_pay2 _ _ (outsAt1 V c n _).2 = _
        rw [outsAt1_snd c n]

/-- What a point with column block 3 stores into the output block. -/
theorem outsAt1_fst (c : Dev nD) (t : Fin cfg1.N) (h1 : t.val % 4 = 3) :
    (outsAt1 V c t.val t.isLt).1 = k1_pay3 (acc1 V c t.val t.isLt) (iblk1 V c 2 t) (iblk1 V c 3 t) (iblk1 V c 4 t) := by
  have h0 : ¬t.val % 4 = 0 := by omega
  rw [outsAt1_C V c t h0 h1]
  dsimp only; unfold oC1; rw [out1_C_5_eq]
  have hz : t.val ≠ 0 := fun e => h0 (by rw [e])
  obtain ⟨n, hn⟩ := t
  cases n with
  | zero => exact absurd rfl hz
  | succ n =>
    rw [acc1, if_neg h0]
    show k1_pay3 (k1_pay2 _ _ (outsAt1 V c n _).2) _ _ _ = _
    rw [outsAt1_snd V c n]

end Cert.KernelIdeal.Fr

end
-- ==== Proof.KernelIdeal.R1Ideal.lean ====
/-
  The layer region's payloads read at an index, on the extended reals: a point adds to the accumulator at (r, c) the sum
  over the block's columns `j` of adjacency(r, j) · scaled features(j, c); the last column block stores
  tanh (Σ_k ((accumulator + scaled features)(r, k) · dis(r, k)) · weights(k, c)). A change of float format is the identity.
-/
import proofs.«163696_j36515811950755_1_alg».proof.Proof.KernelIdeal.R1Val
import proofs.«163696_j36515811950755_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero block. -/
theorem pay1'_apply (j : S512x128.Idx) : k1_pay1 (F := Ideal) j = 0 := by
  unfold k1_pay1
  simp only [shapeCast_self]
  show Ideal.ofBits .f32 0x00000000#32 = 0
  exact Ideal.ofBits_zero_f32

theorem mm1_l0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem mm1_r1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl
/-- The block product into a zero accumulator, at an index: the sum over the contracted axis. -/
theorem mm1_apply (lhs : FVec Ideal S512x4096 .bf16) (rhs : FVec Ideal S4096x128 .bf16) (r : Fin 512) (c : Fin 128) :
    FloatOps.matmul dot_S512x4096_S4096x128_S512x128_1_0_0_1_n_n none lhs rhs (constant S512x128 .f32 0x00000000#32) (ix2 r c) = ∑ k : Fin 4096, lhs (ix2 r k) * rhs (ix2 k c) := by
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r c) ((contrEquiv1 dot_S512x4096_S4096x128_S512x128_1_0_0_1_n_n 4096 rfl rfl).symm k) = ix2 r k := funext fun a => Fin.ext (by
    match a with
    | ⟨0, _⟩ => exact mm1_l0 _ _
    | ⟨1, _⟩ => exact (dot_S512x4096_S4096x128_S512x128_1_0_0_1_n_n.lhsIdx_val_of_single rfl (ix2 r c) _).trans hk)
  have er : dot_S512x4096_S4096x128_S512x128_1_0_0_1_n_n.rhsIdx (ix2 r c) ((contrEquiv1 dot_S512x4096_S4096x128_S512x128_1_0_0_1_n_n 4096 rfl rfl).symm k) = ix2 k c := funext fun a => Fin.ext (by
    match a with
    | ⟨0, _⟩ => exact (dot_S512x4096_S4096x128_S512x128_1_0_0_1_n_n.rhsIdx_val_of_single rfl (ix2 r c) _).trans hk
    | ⟨1, _⟩ => exact mm1_r1 _ _)
  rw [el, er]

theorem mm2_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mm2_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
/-- The block product into a zero accumulator, at an index: the sum over the contracted axis. -/
theorem mm2_apply (lhs : FVec Ideal S512x128 .bf16) (rhs : FVec Ideal S128x128 .bf16) (r : Fin 512) (c : Fin 128) :
    FloatOps.matmul dot_S512x128_S128x128_S512x128_1_0_0_1_n_n none lhs rhs (constant S512x128 .f32 0x00000000#32) (ix2 r c) = ∑ k : Fin 128, lhs (ix2 r k) * rhs (ix2 k c) := by
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c) ((contrEquiv1 dot_S512x128_S128x128_S512x128_1_0_0_1_n_n 128 rfl rfl).symm k) = ix2 r k := funext fun a => Fin.ext (by
    match a with
    | ⟨0, _⟩ => exact mm2_l0 _ _
    | ⟨1, _⟩ => exact (dot_S512x128_S128x128_S512x128_1_0_0_1_n_n.lhsIdx_val_of_single rfl (ix2 r c) _).trans hk)
  have er : dot_S512x128_S128x128_S512x128_1_0_0_1_n_n.rhsIdx (ix2 r c) ((contrEquiv1 dot_S512x128_S128x128_S512x128_1_0_0_1_n_n 128 rfl rfl).symm k) = ix2 k c := funext fun a => Fin.ext (by
    match a with
    | ⟨0, _⟩ => exact (dot_S512x128_S128x128_S512x128_1_0_0_1_n_n.rhsIdx_val_of_single rfl (ix2 r c) _).trans hk
    | ⟨1, _⟩ => exact mm2_r1 _ _)
  rw [el, er]

/-- The accumulation step at an index. -/
theorem pay2'_apply (x0 : Vec Ideal S512x4096 .f32) (x1 : Vec Ideal S4096x128 .f32) (v9 : Vec Ideal S512x128 .f32) (r : Fin 512) (c : Fin 128) :
    k1_pay2 x0 x1 v9 (ix2 r c) = v9 (ix2 r c) + ∑ j : Fin 4096, x0 (ix2 r j) * x1 (ix2 j c) := by
  unfold k1_pay2
  simp only [shapeCast_self, matmul]
  show v9 (ix2 r c) + FloatOps.matmul (F := Ideal) dot_S512x4096_S4096x128_S512x128_1_0_0_1_n_n none _ _ (constant (F := Ideal) S512x128 .f32 0x00000000#32) (ix2 r c) = _
  refine congrArg (v9 (ix2 r c) + ·) ?_
  exact (mm1_apply _ _ r c).trans (Finset.sum_congr rfl fun k _ => rfl)

/-- The stored value at an index. -/
theorem pay3'_apply (v18 v19 v22 : Vec Ideal S512x128 .f32) (v26 : Vec Ideal S128x128 .f32) (r : Fin 512) (c : Fin 128) :
    k1_pay3 v18 v19 v22 v26 (ix2 r c) = Ideal.tanh (∑ k : Fin 128, ((v18 (ix2 r k) + v19 (ix2 r k)) * v22 (ix2 r k)) * v26 (ix2 k c)) := by
  unfold k1_pay3
  simp only [shapeCast_self, matmul]
  show Ideal.tanh (FloatOps.matmul (F := Ideal) dot_S512x128_S128x128_S512x128_1_0_0_1_n_n none _ _ (constant (F := Ideal) S512x128 .f32 0x00000000#32) (ix2 r c)) = _
  refine congrArg Ideal.tanh ?_
  exact (mm2_apply _ _ r c).trans (Finset.sum_congr rfl fun k _ => rfl)

end Cert.KernelIdeal.Fr

end
-- ==== Proof.KernelIdeal.R1Sum.lean ====
/-
  The layer region's result: after the four column blocks of a row block the accumulator holds at (r, c) the sum over
  ALL columns `j` of adjacency(r, j) · scaled features(j, c) (the four block sums are that sum cut into consecutive
  blocks), so the array written back holds the layer's output computed from whole rows.
-/
import proofs.«163696_j36515811950755_1_alg».proof.Proof.KernelIdeal.R1Ideal
import proofs.«163696_j36515811950755_1_alg».proof.Proof.KernelIdeal.R0Sum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-- The scaled features, the diagonal factor's array and the weights as the region finds them, by coordinates. -/
def xsv (c : Dev nD) (j : Fin 16384) (k : Fin 128) : EReal := (V c main_v23 : S16384x128.Idx → EReal) (ix2 j k)
def dv (c : Dev nD) (r : Fin 16384) (k : Fin 128) : EReal := (V c main_v20 : S16384x128.Idx → EReal) (ix2 r k)
def wv (c : Dev nD) (k : Fin 128) (cc : Fin 128) : EReal := (V c main_arg2 : S128x128.Idx → EReal) (ix2 k cc)

/-- adjacency(R, k) · scaled features(k, cc) as a function of the natural column (zero past the end). -/
def prodN (c : Dev nD) (R : Fin 16384) (cc : Fin 128) (k : ℕ) : EReal :=
  if h : k < 16384 then adj V c R ⟨k, h⟩ * xsv V c ⟨k, h⟩ cc else 0

theorem idx1 : ∀ t : Fin cfg1.N, win1_0.index t 0 = t.val / 4 ∧ win1_0.index t 1 = t.val % 4 ∧ win1_1.index t 0 = t.val % 4 ∧ win1_1.index t 1 = 0
    ∧ win1_2.index t 0 = t.val / 4 ∧ win1_2.index t 1 = 0 ∧ win1_3.index t 0 = t.val / 4 ∧ win1_3.index t 1 = 0
    ∧ win1_4.index t 0 = 0 ∧ win1_4.index t 1 = 0 ∧ win1_5.index t 0 = t.val / 4 ∧ win1_5.index t 1 = 0 :=
  (by decide +kernel : ∀ t : Fin grid1.N, win1_0.index t 0 = t.val / 4 ∧ win1_0.index t 1 = t.val % 4 ∧ win1_1.index t 0 = t.val % 4 ∧ win1_1.index t 1 = 0
    ∧ win1_2.index t 0 = t.val / 4 ∧ win1_2.index t 1 = 0 ∧ win1_3.index t 0 = t.val / 4 ∧ win1_3.index t 1 = 0
    ∧ win1_4.index t 0 = 0 ∧ win1_4.index t 1 = 0 ∧ win1_5.index t 0 = t.val / 4 ∧ win1_5.index t 1 = 0)

theorem lt128' (t : Fin cfg1.N) : t.val < 128 := lt_of_lt_of_eq t.isLt N_1

/-- Row `r` of the row block of point `t`. -/
def rowOf1 (t : Fin cfg1.N) (r : Fin 512) : Fin 16384 := ⟨512 * (t.val / 4) + r.val, by have := lt128' t; omega⟩

/-- The product of the two streamed blocks' entries at point `t`. -/
theorem iblk1_prod (c : Dev nD) (t : Fin cfg1.N) (r : Fin 512) (j : Fin 4096) (cc : Fin 128)
    (x0 : Vec Ideal S512x4096 .f32) (x1 : Vec Ideal S4096x128 .f32) (hx0 : x0 = iblk1 V c 0 t) (hx1 : x1 = iblk1 V c 1 t) :
    x0 (ix2 r j) * x1 (ix2 j cc) = prodN V c (rowOf1 t r) cc (4096 * (t.val % 4) + j.val) := by
  subst hx0 hx1
  have ht := lt128' t
  obtain ⟨e00, e01, e10, e11, -⟩ := idx1 t
  unfold prodN
  rw [dif_pos (by omega)]
  unfold adj xsv iblk1
  rw [View.read_apply, View.read_apply]
  have ha : (((cfg1.win 0).blk t).view.emb (ix2 r j) : S16384x16384.Idx) = ix2 (rowOf1 t r) ⟨4096 * (t.val % 4) + j.val, by omega⟩ := by
    funext a; apply Fin.ext
    match a with
    | ⟨0, _⟩ => show win1_0.index t 0 * 512 + 1 * r.val = 512 * (t.val / 4) + r.val; rw [e00]; omega
    | ⟨1, _⟩ => show win1_0.index t 1 * 4096 + 1 * j.val = 4096 * (t.val % 4) + j.val; rw [e01]; omega
  have hb : (((cfg1.win 1).blk t).view.emb (ix2 j cc) : S16384x128.Idx) = ix2 (⟨4096 * (t.val % 4) + j.val, by omega⟩ : Fin 16384) cc := by
    funext a; apply Fin.ext
    match a with
    | ⟨0, _⟩ => show win1_1.index t 0 * 4096 + 1 * j.val = 4096 * (t.val % 4) + j.val; rw [e10]; omega
    | ⟨1, _⟩ => show win1_1.index t 1 * 128 + 1 * cc.val = cc.val; rw [e11]; omega
  rw [ha, hb, cast_eq, cast_eq]

theorem iblk1_2_apply (c : Dev nD) (t : Fin cfg1.N) (r : Fin 512) (k : Fin 128) :
    (iblk1 V c 2 t : Vec Ideal S512x128 .f32) (ix2 r k) = xsv V c (rowOf1 t r) k := by
  obtain ⟨-, -, -, -, e20, e21, -⟩ := idx1 t
  unfold xsv iblk1
  rw [View.read_apply]
  show (V c main_v23 : S16384x128.Idx → EReal) _ = (V c main_v23 : S16384x128.Idx → EReal) _
  refine congrArg (V c main_v23 : S16384x128.Idx → EReal) ?_
  funext a; apply Fin.ext
  match a with
  | ⟨0, _⟩ => show win1_2.index t 0 * 512 + 1 * r.val = 512 * (t.val / 4) + r.val; rw [e20]; omega
  | ⟨1, _⟩ => show win1_2.index t 1 * 128 + 1 * k.val = k.val; rw [e21]; omega

theorem iblk1_3_apply (c : Dev nD) (t : Fin cfg1.N) (r : Fin 512) (k : Fin 128) :
    (iblk1 V c 3 t : Vec Ideal S512x128 .f32) (ix2 r k) = dv V c (rowOf1 t r) k := by
  obtain ⟨-, -, -, -, -, -, e30, e31, -⟩ := idx1 t
  unfold dv iblk1
  rw [View.read_apply]
  show (V c main_v20 : S16384x128.Idx → EReal) _ = (V c main_v20 : S16384x128.Idx → EReal) _
  refine congrArg (V c main_v20 : S16384x128.Idx → EReal) ?_
  funext a; apply Fin.ext
  match a with
  | ⟨0, _⟩ => show win1_3.index t 0 * 512 + 1 * r.val = 512 * (t.val / 4) + r.val; rw [e30]; omega
  | ⟨1, _⟩ => show win1_3.index t 1 * 128 + 1 * k.val = k.val; rw [e31]; omega

theorem iblk1_4_apply (c : Dev nD) (t : Fin cfg1.N) (k : Fin 128) (cc : Fin 128) :
    (iblk1 V c 4 t : Vec Ideal S128x128 .f32) (ix2 k cc) = wv V c k cc := by
  obtain ⟨-, -, -, -, -, -, -, -, e40, e41, -⟩ := idx1 t
  unfold wv iblk1
  rw [View.read_apply]
  show (V c main_arg2 : S128x128.Idx → EReal) _ = (V c main_arg2 : S128x128.Idx → EReal) _
  refine congrArg (V c main_arg2 : S128x128.Idx → EReal) ?_
  funext a; apply Fin.ext
  match a with
  | ⟨0, _⟩ => show win1_4.index t 0 * 128 + 1 * k.val = k.val; rw [e40]; omega
  | ⟨1, _⟩ => show win1_4.index t 1 * 128 + 1 * cc.val = cc.val; rw [e41]; omega

/-- THE RUNNING SUM: after point `n` the accumulator holds at (r, cc) the products' sum over the column blocks done so far. -/
theorem acc1_apply (c : Dev nD) : ∀ (n : ℕ) (h : n < cfg1.N) (r : Fin 512) (cc : Fin 128),
    acc1 V c n h (ix2 r cc) = ∑ s ∈ Finset.range (n % 4 + 1), ∑ j : Fin 4096, prodN V c (rowOf1 ⟨n, h⟩ r) cc (4096 * s + j.val)
  | 0, h, r, cc => by
    rw [acc1, pay2'_apply, pay1'_apply, zero_add]
    show _ = ∑ s ∈ Finset.range 1, _
    rw [Finset.sum_range_one]
    exact Finset.sum_congr rfl fun j _ => iblk1_prod V c ⟨0, h⟩ r j cc _ _ rfl rfl
  | n + 1, h, r, cc => by
    have hN := lt128' ⟨n + 1, h⟩
    rw [acc1]
    by_cases h0 : (n + 1) % 4 = 0
    · rw [if_pos h0, pay2'_apply, pay1'_apply, zero_add, h0]
      show _ = ∑ s ∈ Finset.range 1, _
      rw [Finset.sum_range_one]
      refine Finset.sum_congr rfl fun j _ => (iblk1_prod V c ⟨n + 1, h⟩ r j cc _ _ rfl rfl).trans ?_
      show prodN V c _ cc (4096 * ((n + 1) % 4) + j.val) = _
      rw [h0]
    · rw [if_neg h0, pay2'_apply, acc1_apply c n (Nat.lt_of_succ_lt h) r cc]
      have e1 : (n + 1) % 4 = n % 4 + 1 := by omega
      have e2 : rowOf1 ⟨n, Nat.lt_of_succ_lt h⟩ r = rowOf1 ⟨n + 1, h⟩ r := Fin.ext (by show 512 * (n / 4) + r.val = 512 * ((n + 1) / 4) + r.val; omega)
      rw [e1, Finset.sum_range_succ _ (n % 4 + 1), e2]
      refine congrArg (_ + ·) ?_
      refine Finset.sum_congr rfl fun j _ => (iblk1_prod V c ⟨n + 1, h⟩ r j cc _ _ rfl rfl).trans ?_
      show prodN V c _ cc (4096 * ((n + 1) % 4) + j.val) = _
      rw [e1]

/-- A whole row's products from their four blocks. -/
theorem row_prod (c : Dev nD) (R : Fin 16384) (cc : Fin 128) :
    ∑ s ∈ Finset.range 4, ∑ j : Fin 4096, prodN V c R cc (4096 * s + j.val) = ∑ j : Fin 16384, adj V c R j * xsv V c j cc := by
  rw [BlockedSum.sum_blocks 4 4096 16384 (by norm_num) (prodN V c R cc)]
  exact Finset.sum_congr rfl fun k _ => by unfold prodN; rw [dif_pos k.isLt]

/-- The layer's output at a row and a column, from the arrays the region finds. -/
def outEntry (c : Dev nD) (R : Fin 16384) (cc : Fin 128) : EReal :=
  Ideal.tanh (∑ k : Fin 128, (((∑ j : Fin 16384, adj V c R j * xsv V c j k) + xsv V c R k) * dv V c R k) * wv V c k cc)

/-- What the last column block stores. -/
theorem out1_apply (c : Dev nD) (t : Fin cfg1.N) (h1 : t.val % 4 = 3) (r : Fin 512) (cc : Fin 128) :
    (outsAt1 V c t.val t.isLt).1 (ix2 r cc) = outEntry V c (rowOf1 t r) cc := by
  rw [outsAt1_fst V c t h1, pay3'_apply]
  unfold outEntry
  refine congrArg Ideal.tanh (Finset.sum_congr rfl fun k _ => ?_)
  rw [acc1_apply V c t.val t.isLt r k, h1, iblk1_2_apply, iblk1_3_apply, iblk1_4_apply]
  show ((∑ s ∈ Finset.range 4, _) + _) * _ * _ = _
  rw [row_prod]

/-- The layer region's result array. -/
def outArr (c : Dev nD) : S16384x128.Idx → EReal := fun i => outEntry V c (i 0) (i 1)

theorem out1_apply' (c : Dev nD) (t : Fin cfg1.N) (h1 : t.val % 4 = 3) (y : S512x128.Idx) :
    (outsAt1 V c t.val t.isLt).1 y = outEntry V c (rowOf1 t (y 0)) (y 1) :=
  (congrArg (outsAt1 V c t.val t.isLt).1 (eq_ix2 y)).trans (out1_apply V c t h1 (y 0) (y 1))

theorem flushed1_eq (c : Dev nD) (t : Fin cfg1.N) (hf : (cfg1.win 5).flush t = true) :
    (dat1 V c).flushed 5 t = ((cfg1.win 5).blk t).view.read (Elt Ideal) (outArr V c) := by
  have h3 : t.val % 4 = 3 := (flush1_5 t).mp hf
  obtain ⟨-, -, -, -, -, -, -, -, -, -, e50, e51⟩ := idx1 t
  show (cfg1.win 5).cut (grid1.coords t) ((dat1 V c).after 5 t) = _
  rw [after1_5]
  funext y
  rw [View.read_apply]
  show (outsAt1 V c t.val t.isLt).1 ((cfg1.win 5).xinj (grid1.coords t) y) = _
  rw [out1_apply' V c t h3 _]
  have ea : rowOf1 t ((cfg1.win 5).xinj (grid1.coords t) y 0) = (((cfg1.win 5).blk t).view.emb y) 0 := Fin.ext (by
    show 512 * (t.val / 4) + (y 0).val = win1_5.index t 0 * 512 + 1 * (y 0).val; rw [e50]; omega)
  have eb : ((cfg1.win 5).xinj (grid1.coords t) y 1 : Fin 128) = (((cfg1.win 5).blk t).view.emb y) 1 := Fin.ext (by
    show (y 1).val = win1_5.index t 1 * 128 + 1 * (y 1).val; rw [e51]; omega)
  rw [ea, eb]
  unfold outArr
  exact (cast_eq _ _).symm

theorem mem_blk1_5 (t : Fin cfg1.N) (i : S16384x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v24).slice (win1_5.rect t)).set ↔ _
  rw [View.set_slice_whole, Rect.mem_set_unit]
  exact Iff.rfl

/-- The result array of the layer region. -/
theorem final1 (c : Dev nD) : (dat1 V c).arrAt 5 cfg1.N = outArr V c :=
  (dat1 V c).arrAt_eq_of_cover 5 (outArr V c) (flushed1_eq V c) fun i => by
    have hi0 : (i 0).val < 16384 := (i 0).isLt
    have hi1 : (i 1).val < 128 := (i 1).isLt
    have hN : cfg1.N = 128 := N_1
    refine ⟨⟨4 * ((i 0).val / 512) + 3, by rw [hN]; omega⟩, (flush1_5 _).mpr (by show (4 * ((i 0).val / 512) + 3) % 4 = 3; omega), ?_⟩
    rw [mem_blk1_5]
    intro a
    obtain ⟨-, -, -, -, -, -, -, -, -, -, e50, e51⟩ := idx1 ⟨4 * ((i 0).val / 512) + 3, by rw [hN]; omega⟩
    match a with
    | ⟨0, _⟩ =>
      show win1_5.index _ 0 * 512 ≤ (i 0).val ∧ (i 0).val < win1_5.index _ 0 * 512 + 512
      rw [e50]; show (4 * ((i 0).val / 512) + 3) / 4 * 512 ≤ _ ∧ _ < (4 * ((i 0).val / 512) + 3) / 4 * 512 + 512; omega
    | ⟨1, _⟩ =>
      show win1_5.index _ 1 * 128 ≤ (i 1).val ∧ (i 1).val < win1_5.index _ 1 * 128 + 128
      rw [e51]; omega

end Cert.KernelIdeal.Fr

end
-- ==== Proof.KernelIdeal.Value.lean ====
/-
  The idealized program's result, index by index. The layer region finds: the adjacency as the host operations built it
  (no later operation touches it); the diagonal factor's array as the degree region left it, `dis` of the row in every
  lane; the scaled features `x j k · dis j` (the host operations between the regions take lane 0 of the diagonal
  factor's array, broadcast it along the rows and multiply); and the weights as launched. With those the layer region's
  result array is the specification's `out`.
-/
import proofs.«163696_j36515811950755_1_alg».proof.Proof.KernelIdeal.Frame
import proofs.«163696_j36515811950755_1_alg».proof.Proof.KernelIdeal.R0Final
import proofs.«163696_j36515811950755_1_alg».proof.Proof.KernelIdeal.R1Sum
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ) (ρ : Dev nD → PrngReg)

/-- The features and the weights as launched, and the adjacency the host operations build, by coordinates. -/
def xArg (c : Dev nD) (j : Fin 16384) (k : Fin 128) : EReal := (m ((c : Thread nD τ).loc main_arg0) : S16384x128.Idx → EReal) (ix2 j k)
def wArg (c : Dev nD) (k cc : Fin 128) : EReal := (m ((c : Thread nD τ).loc main_arg2) : S128x128.Idx → EReal) (ix2 k cc)
abbrev Amat (c : Dev nD) : Fin 16384 → Fin 16384 → EReal := adj (V1 m ρ) c

theorem W2_keep (c : Dev nD) (b : Ref sig .tc) (h19 : b ≠ main_v19) (h20 : b ≠ main_v20) :
    W2 m ρ c (Proc.devRef .tc b) = W1 m ρ c (Proc.devRef .tc b) :=
  W2_of_ne m ρ c b (fun w => by match w with | ⟨0, _⟩ => exact fun e => h19 e.symm | ⟨1, _⟩ => exact fun e => h20 e.symm)

theorem W2_arg0 (c : Dev nD) : W2 m ρ c (Proc.devRef .tc main_arg0) = m ((c : Thread nD τ).loc main_arg0) :=
  (W2_keep m ρ c main_arg0 (by decide) (by decide)).trans
    ((StableHlo.after_of_writes_sub hostOps0 _ hostOps0_writes (by decide)).trans rfl)

theorem W2_v20 (c : Dev nD) : W2 m ρ c (Proc.devRef .tc main_v20) = disArr (V1 m ρ) c :=
  (W2_arr m ρ c 1).trans (final0 (V1 m ρ) c)

theorem W2_v19 (c : Dev nD) : W2 m ρ c (Proc.devRef .tc main_v19) = V1 m ρ c main_v19 :=
  (W2_arr m ρ c 0).trans (((dat0 (V1 m ρ) c).arrAt_in 0 rfl _).trans (A_eq0 (V1 m ρ) c 0))

/-- The layer region finds the adjacency as built, -/
theorem adj_V3 (c : Dev nD) : adj (V3 m ρ) c = Amat m ρ c := by
  funext r j
  unfold adj
  have e : V3 m ρ c main_v19 = V1 m ρ c main_v19 :=
    (StableHlo.after_of_writes_sub hostOps1 _ hostOps1_writes (by decide)).trans (W2_v19 m ρ c)
  rw [e]
  rfl

/-- the diagonal factor's array at `dis` of the row, -/
theorem dv_V3 (c : Dev nD) (r : Fin 16384) (k : Fin 128) : dv (V3 m ρ) c r k = Cert.GcnSpec.dis (Amat m ρ c) r := by
  unfold dv
  have e : V3 m ρ c main_v20 = disArr (V1 m ρ) c :=
    (StableHlo.after_of_writes_sub hostOps1 _ hostOps1_writes (by decide)).trans (W2_v20 m ρ c)
  rw [e]
  rfl

/-- the weights as launched, -/
theorem wv_V3 (c : Dev nD) (k cc : Fin 128) : wv (V3 m ρ) c k cc = wArg m c k cc := by
  unfold wv wArg
  have e : V3 m ρ c main_arg2 = m ((c : Thread nD τ).loc main_arg2) :=
    (StableHlo.after_of_writes_sub hostOps1 _ hostOps1_writes (by decide)).trans
      ((W2_keep m ρ c main_arg2 (by decide) (by decide)).trans
        ((StableHlo.after_of_writes_sub hostOps0 _ hostOps0_writes (by decide)).trans rfl))
  rw [e]

/-- Lane 0 of an array broadcast along the rows and multiplied in, at an index. -/
theorem scale_apply (x d : FVec Ideal S16384x128 .f32) (j : Fin 16384) (k : Fin 128) :
    mulf x (broadcastInDim S16384x128 ![0, 1] bcast_S16384x1_S16384x128_0_1
      (extractStridedSlice S16384x1 ![0, 0] d slices_S16384x128_S16384x1_0_0)) (ix2 j k) = x (ix2 j k) * d (ix2 j (0 : Fin 128)) := by
  show x (ix2 j k) * _ = _
  refine congrArg (x (ix2 j k) * ·) ?_
  rw [broadcastInDim_apply _ bcast_S16384x1_S16384x128_0_1 _ (ix2 j k) (ix2 j (0 : Fin 1)) (fun a => by match a with | ⟨0, _⟩ => rfl | ⟨1, _⟩ => rfl)]
  exact extractStridedSlice_apply _ _ slices_S16384x128_S16384x1_0_0 (ix2 j (0 : Fin 1)) (ix2 j (0 : Fin 128)) (fun a => by match a with | ⟨0, _⟩ => exact (Nat.zero_add _).symm | ⟨1, _⟩ => rfl)

/-- and the features scaled by `dis` of their row. -/
theorem xsv_V3 (c : Dev nD) (j : Fin 16384) (k : Fin 128) :
    xsv (V3 m ρ) c j k = xArg m c j k * Cert.GcnSpec.dis (Amat m ρ c) j := by
  unfold xsv xArg
  have e : (V3 m ρ c main_v23 : S16384x128.Idx → EReal)
      = mulf (F := Ideal) (φ := .f32) (W2 m ρ c (Proc.devRef .tc main_arg0) : S16384x128.Idx → EReal)
          (broadcastInDim S16384x128 ![0, 1] bcast_S16384x1_S16384x128_0_1
            (extractStridedSlice S16384x1 ![0, 0] (W2 m ρ c (Proc.devRef .tc main_v20) : S16384x128.Idx → EReal) slices_S16384x128_S16384x1_0_0)) := by
    show StableHlo.after hostOps1 (W2 m ρ c) (Proc.devRef .tc main_v23) = _
    after_results
  rw [e, W2_arg0, W2_v20]
  refine (scale_apply _ _ j k).trans ?_
  unfold disArr
  rfl

/-- THE RESULT ARRAY of the idealized program is the specification's `out` of the built adjacency, the features and the weights. -/
theorem result_eq (c : Dev nD) :
    (dat1 (V3 m ρ) c).arrAt 5 cfg1.N
      = fun i => Cert.GcnSpec.out (Amat m ρ c) (xArg m c) (wArg m c) (i 0) (i 1) := by
  rw [final1]
  funext i
  obtain ⟨r, cc, rfl⟩ : ∃ (r : Fin 16384) (cc : Fin 128), i = ix2 r cc := ⟨i 0, i 1, eq_ix2 i⟩
  show outEntry (V3 m ρ) c r cc = Cert.GcnSpec.out (Amat m ρ c) (xArg m c) (wArg m c) r cc
  unfold outEntry Cert.GcnSpec.out Cert.GcnSpec.ax Cert.GcnSpec.hsum Cert.GcnSpec.xs
  rw [adj_V3]
  refine congrArg Ideal.tanh (Finset.sum_congr rfl fun k _ => ?_)
  rw [dv_V3, wv_V3, xsv_V3]
  refine congrArg (· * wArg m c k cc) (congrArg (· * Cert.GcnSpec.dis (Amat m ρ c) r) (congrArg (· + xArg m c r k * Cert.GcnSpec.dis (Amat m ρ c) r) (Finset.sum_congr rfl fun j _ => ?_)))
  rw [xsv_V3]

end Cert.KernelIdeal.Fr

end
-- ==== Proof.LibScatterEntry.lean ====
/-
  Entries of an overwriting scatter.

  A scatter whose body returns the update (`x.at[idx].set(v)`) is a left fold over the update indices; each step either leaves
  the array as it is or replaces one entry by one update entry. So every entry of the result is an entry of the operand or an entry
  of the updates, whatever the indices are (repeated, out of range, in any order). Stated for a predicate: what holds of every
  operand entry and of every update entry holds of every entry of the result.
-/
import Idealize.ShloMosaic.PureOps

namespace Cert.LibScatterEntry

open Idealize.ShloMosaic

/-- **Entries of an overwriting scatter.** If `P` holds of every entry of the operand `x` and of every entry of the updates
    `upd`, it holds of every entry of `Host.scatter d (fun _ b => b) x idx upd`, for any scatter indices `idx`: the fold's
    steps only ever copy an update entry over an entry. -/
theorem scatter_overwrite_forall {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    refine ih _ fun i' => ?_
    cases h : d.resultIdx? (u.rowMajor.symm n) idx with
    | none => exact hx i'
    | some k =>
      show P (if i' = k then upd (u.rowMajor.symm n) else x i')
      split_ifs
      · exact hu _
      · exact hx i'

/-- The same as a dichotomy: an entry of an overwriting scatter is the operand's entry there or some update entry. -/
theorem scatter_overwrite_entry {α : Type} {s si u : Shape} {w : Nat} (d : ScatterDims s si u)
    (x : s.Idx → α) (idx : IVec si w) (upd : u.Idx → α) (i : s.Idx) :
    (∃ i', Host.scatter d (fun _ b => b) x idx upd i = x i') ∨ ∃ j, Host.scatter d (fun _ b => b) x idx upd i = upd j :=
  scatter_overwrite_forall d (fun a => (∃ i', a = x i') ∨ ∃ j, a = upd j) x idx upd
    (fun i' => Or.inl ⟨i', rfl⟩) (fun j => Or.inr ⟨j, rfl⟩) i

end Cert.LibScatterEntry
-- ==== Proof.RefAdj.lean ====
/-
  The reference's adjacency matrix: the dense array its scatter writes, as a function of the edge list.

  The scatter starts from the all-zero 16384 × 16384 array and overwrites, for each edge, one entry by 1. Every entry of the
  result is therefore 0 or 1 whatever the edge list holds (repeated edges, indices out of range): in particular a real number.
-/
import proofs.«163696_j36515811950755_1_alg».proof.Proof.RefReadP
import proofs.«163696_j36515811950755_1_alg».proof.Proof.LibScatterEntry

noncomputable section

namespace Cert.GcnRef

open Idealize.ShloMosaic Cert.ReferenceIdeal Cert.ReferenceIdeal.Gen

/-- The reference's dense adjacency: what its scatter leaves, as a function of the edge list `e`. -/
def Aref (e : IVec S2x262144 32) : S16384x16384.Idx → EReal :=
  Cert.ReferenceIdeal.ReadP.val_main_v19 (F := Ideal) e

/-- The f32 pattern `0x3F800000` is 1. -/
theorem ofBits_one_f32 : Ideal.ofBits .f32 0x3F800000#32 = 1 := IdealRules.sign_bit.ideal_onePat .f32

/-- Every entry of the reference's adjacency is 0 or 1. -/
theorem adj_zero_or_one (e : IVec S2x262144 32) (i : S16384x16384.Idx) : Aref e i = 0 ∨ Aref e i = 1 := by
  unfold Aref Cert.ReferenceIdeal.ReadP.val_main_v19
  refine Cert.LibScatterEntry.scatter_overwrite_forall _ (fun a : EReal => a = 0 ∨ a = 1) _ _ _ (fun i' => Or.inl ?_)
    (fun j => Or.inr ?_) i
  · rw [Cert.ReferenceIdeal.ReadP.val_main_v0_apply, Cert.ReferenceIdeal.ReadP.val_main_cst_apply]
    exact Ideal.ofBits_zero_f32
  · rw [Cert.ReferenceIdeal.ReadP.val_main_v18_apply, Cert.ReferenceIdeal.ReadP.val_main_cst_3_apply]
    exact ofBits_one_f32

/-- Every entry of the reference's adjacency is a real number. -/
theorem adj_finite (e : IVec S2x262144 32) : ∀ i, ∃ r : ℝ, Aref e i = (r : EReal) := by
  intro i
  rcases adj_zero_or_one e i with h | h
  · exact ⟨0, by rw [h]; rfl⟩
  · exact ⟨1, by rw [h]; rfl⟩

end Cert.GcnRef

end
-- ==== Proof.Bridge.lean ====
/-
  The two programs build the adjacency by the SAME host operations on the edge list (the slices of the two index rows,
  the wrap of negative indices, the pairing, the scatter of ones into zeros), so the adjacency the kernel's regions read
  is the reference's, as functions of the edge list.
-/
import proofs.«163696_j36515811950755_1_alg».proof.Proof.KernelIdeal.Value
import proofs.«163696_j36515811950755_1_alg».proof.Proof.RefAdj
import Idealize.ShloMosaic.Lib.StableHlo.Run

set_option maxRecDepth 16384

noncomputable section

namespace Cert.Bridge

open Idealize.ShloMosaic Idealize.ShloMosaic.TcCoe Idealize.SL.Sem
open Idealize.ShloMosaic.ValueIdx
open Cert.KernelIdeal Cert.KernelIdeal.Gen Cert.KernelIdeal.Fr

variable (m : (ℓ : Loc nD τ sig) → Buf (Elt Ideal) ℓ) (ρ : Dev nD → PrngReg)

set_option maxHeartbeats 2000000 in
/-- The adjacency the idealized kernel's host operations build is the reference's, of the same edge list. -/
theorem adj_eq (c : Dev nD) :
    StableHlo.after hostOps0 (W0 m ρ c) (Proc.devRef .tc main_v19) = Cert.GcnRef.Aref (m ((c : Thread nD τ).loc main_arg1)) := by
  after_results
  rfl

theorem Amat_eq (c : Dev nD) :
    Amat m ρ c = fun r j => Cert.GcnRef.Aref (m ((c : Thread nD τ).loc main_arg1)) (ix2 r j) := by
  funext r j
  unfold Amat adj
  exact congrFun (adj_eq m ρ c) (ix2 r j)

end Cert.Bridge

end
-- ==== Proof.GcnAlgebra.lean ====
/-
  The reference's arrangement of the layer equals the specification's.

  The reference forms the dense normalized matrix first and multiplies once:
      deg r   = 0 + Σ_j (A r j + I r j)
      d r     = rsqrt (deg r) where deg r > 0, else 0
      L r j   = ((A r j + I r j) · d r) · d j
      ax r c  = Σ_j L r j · x j c
  The specification scales the features by `d`, multiplies by `A`, adds the scaled row itself and scales the rows again.
  The degrees agree on all of the extended reals (only commutativity and associativity of `+` are used, and `Σ_j I r j = 1`).
  The products agree when the entries of `A` and of `x` are real numbers: then every degree is a real number, so is every `d r`,
  and the identity  Σ_j ((a_j + [r = j]) · d_r · d_j) · x_j = ((Σ_j a_j · (x_j · d_j)) + x_r · d_r) · d_r  is one of real numbers
  (distributivity, which fails at the infinities, is used only there).
-/
import proofs.«163696_j36515811950755_1_alg».proof.Proof.Spec
import Idealize.ShloMosaic.PureOps.Ideal.Laws

noncomputable section

open scoped BigOperators

namespace Cert.GcnRef

open Idealize.ShloMosaic Cert.GcnSpec

/-- The coercion from the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem zero32_eq : zero32 = 0 := Ideal.ofBits_zero_f32
theorem one32_eq : one32 = 1 := IdealRules.sign_bit.ideal_onePat .f32

/-- The guarded inverse square root of a real number is a real number. -/
theorem dsel_coe (t : ℝ) : ∃ s : ℝ, dsel (t : EReal) = (s : EReal) := by
  unfold dsel
  rw [zero32_eq]
  by_cases h : 0 < t
  · refine ⟨(Real.sqrt t)⁻¹, ?_⟩
    have hc : Ideal.cmp .ogt (t : EReal) 0 = 1#1 := by simp [Ideal.cmp, h]
    have hr : Ideal.rsqrt (t : EReal)
        = if t < 0 then ⊥ else if t = 0 then ⊤ else (((Real.sqrt t)⁻¹ : ℝ) : EReal) := rfl
    rw [hc, hr, if_neg (not_lt.mpr h.le), if_neg h.ne']
    simp [Scalar.select]
  · refine ⟨0, ?_⟩
    have hc : Ideal.cmp .ogt (t : EReal) 0 = 0#1 := by simp [Ideal.cmp, h]
    rw [hc]
    simp [Scalar.select]

variable (A : Fin 16384 → Fin 16384 → EReal) (x : Fin 16384 → Fin 128 → EReal) (W : Fin 128 → Fin 128 → EReal)

/-- The identity matrix. -/
def eye (r j : Fin 16384) : EReal := if r = j then 1 else 0
/-- The reference's row degree: the sum, from 0, of the row of `A + I`. -/
def degR (r : Fin 16384) : EReal := 0 + ∑ j, (A r j + eye r j)
/-- The reference's `D^{-1/2}`. -/
def disR (r : Fin 16384) : EReal := dsel (degR A r)
/-- The reference's normalized matrix `D^{-1/2} (A + I) D^{-1/2}`. -/
def lapR (r j : Fin 16384) : EReal := ((A r j + eye r j) * disR A r) * disR A j
/-- The reference's aggregated features. -/
def axR (r : Fin 16384) (c : Fin 128) : EReal := ∑ j, lapR A r j * x j c
/-- The reference's output. -/
def outR (r : Fin 16384) (c : Fin 128) : EReal := Ideal.tanh (∑ k, axR A x r k * W k c)

/-- The two degrees agree, on all of the extended reals. -/
theorem degR_eq (r : Fin 16384) : degR A r = deg A r := by
  unfold degR deg eye
  rw [zero_add, Finset.sum_add_distrib, Finset.sum_ite_eq, if_pos (Finset.mem_univ r), one32_eq]

theorem disR_eq (r : Fin 16384) : disR A r = dis A r := by
  unfold disR dis; rw [degR_eq]

/-- With real entries in `A`, every `dis r` is a real number. -/
theorem dis_real (hA : ∀ r j, ∃ t : ℝ, A r j = (t : EReal)) (r : Fin 16384) : ∃ s : ℝ, dis A r = (s : EReal) := by
  choose a ha using hA
  unfold dis deg
  rw [one32_eq]
  have : (∑ j, A r j) + 1 = ((∑ j, a r j + 1 : ℝ) : EReal) := by
    rw [EReal.coe_add, coe_sum]; simp only [ha]; rfl
  rw [this]
  exact dsel_coe _

/-- The aggregated features agree when `A` and `x` have real entries. -/
theorem axR_eq (hA : ∀ r j, ∃ t : ℝ, A r j = (t : EReal)) (hx : ∀ j c, ∃ t : ℝ, x j c = (t : EReal))
    (r : Fin 16384) (c : Fin 128) : axR A x r c = ax A x r c := by
  choose d hd using dis_real A hA
  choose a ha using hA
  choose ξ hξ using hx
  unfold axR lapR ax hsum xs eye
  simp only [disR_eq, hd, ha, hξ]
  have e1 : ∀ j : Fin 16384, (if r = j then (1 : EReal) else 0) = ((if r = j then (1 : ℝ) else 0 : ℝ) : EReal) := by
    intro j; split <;> rfl
  simp only [e1, ← EReal.coe_mul, ← EReal.coe_add, ← coe_sum]
  rw [EReal.coe_eq_coe_iff]
  have hsplit : ∀ i : Fin 16384, (a r i + if r = i then 1 else 0) * d r * d i * ξ i c
      = a r i * (ξ i c * d i) * d r + (if r = i then ξ i c * d i * d r else 0) := by
    intro i
    by_cases h : r = i
    · rw [if_pos h, if_pos h]; ring
    · rw [if_neg h, if_neg h]; ring
  simp only [hsplit, Finset.sum_add_distrib, Finset.sum_ite_eq, Finset.mem_univ, if_true]
  rw [add_mul, Finset.sum_mul]

/-- The reference's arrangement gives the specification's output when `A` and `x` have real entries
    (nothing is asked of `W`: the last product is the same on both sides). -/
theorem outR_eq_out (hA : ∀ r j, ∃ t : ℝ, A r j = (t : EReal)) (hx : ∀ j c, ∃ t : ℝ, x j c = (t : EReal))
    (r : Fin 16384) (c : Fin 128) : outR A x W r c = out A x W r c := by
  unfold outR out
  simp only [axR_eq A x hA hx]

end Cert.GcnRef

end
-- ==== Proof.RefValue.lean ====
/-
  The reference's result is the specification's output.

  The reference's stages are read at an index one after the other: the identity matrix (a comparison of the two coordinates turned into
  0 or 1), the matrix `A + I`, its row sums, the guarded inverse square roots, the normalized matrix, and the two products. Each stage at
  an index is the corresponding formula of the reference's arrangement; that arrangement equals the specification's when the adjacency
  and the features have real entries.
-/
import proofs.«163696_j36515811950755_1_alg».proof.Proof.RefAdj
import proofs.«163696_j36515811950755_1_alg».proof.Proof.GcnAlgebra

noncomputable section

open scoped BigOperators

namespace Cert.GcnRef

open Idealize.ShloMosaic Idealize.ShloMosaic.ValueIdx Cert.ReferenceIdeal Cert.ReferenceIdeal.Gen Cert.ReferenceIdeal.ReadP

/-- The adjacency as a function of two coordinates. -/
abbrev Amat (e : IVec S2x262144 32) : Fin 16384 → Fin 16384 → EReal := fun r j => Aref e (ix2 r j)

/-- The reference's identity matrix at `(r, j)`: the comparison `r + 0 = j` of the two coordinates as 32-bit words, read as 0 or 1. -/
theorem eye_read (r j : Fin 16384) : val_main_v25 (F := Ideal) (ix2 r j) = eye r j := by
  rw [val_main_v25_apply, val_main_v24_apply, val_main_v23_apply, val_main_v20_apply, val_main_v22_apply, val_main_c_4_apply,
    val_main_v21_apply]
  show (((IntOp.cmpi .eq (IntOp.addi (BitVec.ofNat 32 r.val) 0#32) (BitVec.ofNat 32 j.val)).toNat : ℝ) : EReal) = eye r j
  unfold eye
  by_cases h : r = j
  · have hc : IntOp.cmpi .eq (IntOp.addi (BitVec.ofNat 32 r.val) 0#32) (BitVec.ofNat 32 j.val) = 1#1 :=
      IntOp.cmpi_eq.2 (by rw [h]; simp [IntOp.addi])
    rw [hc, if_pos h]; simp
  · have hc : IntOp.cmpi .eq (IntOp.addi (BitVec.ofNat 32 r.val) 0#32) (BitVec.ofNat 32 j.val) = 0#1 := by
      rcases BitVec.eq_zero_or_eq_one (IntOp.cmpi .eq (IntOp.addi (BitVec.ofNat 32 r.val) 0#32) (BitVec.ofNat 32 j.val))
        with h0 | h1
      · exact h0
      · exfalso
        have h2 := IntOp.cmpi_eq.1 h1
        simp only [IntOp.addi, BitVec.add_zero] at h2
        have h3 := congrArg BitVec.toNat h2
        simp only [BitVec.toNat_ofNat] at h3
        have hr := r.isLt
        have hj := j.isLt
        exact h (Fin.ext (by omega))
    rw [hc, if_neg h]; simp

/-- `A + I` at `(r, j)`. -/
theorem adjI_read (e : IVec S2x262144 32) (r j : Fin 16384) :
    val_main_v26 (F := Ideal) e (ix2 r j) = Amat e r j + eye r j := by
  rw [val_main_v26_apply, eye_read]; rfl

/-- The row sums of `A + I`, from 0. -/
theorem deg_read (e : IVec S2x262144 32) (r : Fin 16384) : val_main_v27 (F := Ideal) e (ix1 r) = degR (Amat e) r := by
  rw [val_main_v27_apply, val_main_cst_5_apply]
  unfold degR
  have hi : ∀ k : Fin 16384, idx_main_v27 (ix1 r) k = ix2 r k := fun k =>
    funext fun a => Fin.ext (by match a with | ⟨0, _⟩ => rfl | ⟨1, _⟩ => rfl)
  simp only [hi, adjI_read, Ideal.ofBits_def, Ideal.ofBits_zero_f32]

/-- The guarded inverse square root of the row sum. -/
theorem dis_read (e : IVec S2x262144 32) (r : Fin 16384) : val_main_v31 (F := Ideal) e (ix1 r) = disR (Amat e) r := by
  rw [val_main_v31_apply, val_main_v29_apply, val_main_v30_apply, val_main_v28_apply, val_main_cst_6_apply,
    val_main_call0_v1_apply, val_main_call0_v0_apply, val_main_cst_7_apply, deg_read]
  simp only [Ideal.cmpf_def, Ideal.hostUnary_rsqrt_def, Ideal.ofBits_def]
  unfold disR Cert.GcnSpec.dsel
  rfl

/-- The normalized matrix at `(r, j)`: the entry of `A + I` scaled by the row's and by the column's factor. -/
theorem lap_read (e : IVec S2x262144 32) (r j : Fin 16384) : val_main_v37 (F := Ideal) e (ix2 r j) = lapR (Amat e) r j := by
  rw [val_main_v37_apply, val_main_v34_apply, val_main_v33_apply, val_main_v32_apply, val_main_v36_apply, val_main_v35_apply,
    adjI_read]
  have h1 : idx_main_v32 (idx_main_v33 (ix2 r j)) = ix1 r := funext fun a => Fin.ext (by match a with | ⟨0, _⟩ => rfl)
  have h2 : idx_main_v35 (idx_main_v36 (ix2 r j)) = ix1 j := funext fun a => Fin.ext (by match a with | ⟨0, _⟩ => rfl)
  rw [h1, h2]
  simp only [dis_read]
  rfl

/-- The first product at `(r, c)`. -/
theorem ax_read (x : FVec Ideal S16384x128 .f32) (e : IVec S2x262144 32) (r : Fin 16384) (c : Fin 128) :
    val_main_v38 (F := Ideal) x e (ix2 r c) = axR (Amat e) (fun j c => x (ix2 j c)) r c := by
  rw [val_main_v38_apply]
  unfold axR
  have hl : ∀ k : Fin 16384, lidx_main_v38 (ix2 r c) k = ix2 r k := fun k =>
    funext fun a => Fin.ext (by match a with | ⟨0, _⟩ => rfl | ⟨1, _⟩ => rfl)
  have hr : ∀ k : Fin 16384, ridx_main_v38 (ix2 r c) k = ix2 k c := fun k =>
    funext fun a => Fin.ext (by match a with | ⟨0, _⟩ => rfl | ⟨1, _⟩ => rfl)
  simp only [hl, hr, lap_read]

/-- The second product and the hyperbolic tangent at `(r, c)`. -/
theorem out_read (x : FVec Ideal S16384x128 .f32) (e : IVec S2x262144 32) (w : FVec Ideal S128x128 .f32)
    (r : Fin 16384) (c : Fin 128) :
    val_main_v40 (F := Ideal) x e w (ix2 r c)
      = outR (Amat e) (fun j c => x (ix2 j c)) (fun k c => w (ix2 k c)) r c := by
  rw [val_main_v40_apply, val_main_v39_apply]
  unfold outR
  have hl : ∀ k : Fin 128, lidx_main_v39 (ix2 r c) k = ix2 r k := fun k =>
    funext fun a => Fin.ext (by match a with | ⟨0, _⟩ => rfl | ⟨1, _⟩ => rfl)
  have hr : ∀ k : Fin 128, ridx_main_v39 (ix2 r c) k = ix2 k c := fun k =>
    funext fun a => Fin.ext (by match a with | ⟨0, _⟩ => rfl | ⟨1, _⟩ => rfl)
  simp only [hl, hr, ax_read, Ideal.hostUnary_tanh_def]

/-- **The reference's result is the specification's output** of the reference's own adjacency, the features and the weights, when the
    features are real numbers (the adjacency's entries are 0 or 1 whatever the edge list is; nothing is asked of the weights). -/
theorem ref_value (x : FVec Ideal S16384x128 .f32) (e : IVec S2x262144 32) (w : FVec Ideal S128x128 .f32)
    (hx : ∀ i, ∃ r : ℝ, x i = (r : EReal)) :
    val_main_v40 (F := Ideal) x e w
      = fun i => Cert.GcnSpec.out (fun r j => Aref e (ix2 r j)) (fun j c => x (ix2 j c)) (fun k c => w (ix2 k c)) (i 0) (i 1) := by
  funext i
  obtain ⟨r, c, rfl⟩ : ∃ (r : Fin 16384) (c : Fin 128), i = ix2 r c := ⟨i 0, i 1, eq_ix2 i⟩
  rw [out_read]
  exact outR_eq_out _ _ _ (fun r j => adj_finite e _) (fun j c => hx _) r c

end Cert.GcnRef

end
-- ==== Proof.RefFinite.lean ====
/-
  From the precondition to finiteness of the features.

  The precondition is `all(|x| < +∞) ∧ all(|w| < +∞)`, each `all` a reduction by `and` from 1. When the whole is 1, every
  comparison is 1, so every `|x i|` is below `+∞`; an extended real whose absolute value is below `+∞` is neither infinity,
  hence a real number.
-/
import proofs.«163696_j36515811950755_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

namespace Cert.GcnRef

open Idealize.ShloMosaic Cert.Pre_finite_inputs Cert.Pre_finite_inputs.Gen

instance : Subsingleton S_.Idx := ⟨fun a b => funext fun d => d.elim0⟩

/-- The f32 pattern `0x7F800000` is `+∞`. -/
theorem ofBits_inf_f32 : Ideal.ofBits .f32 0x7F800000#32 = ⊤ := by simp [Ideal.ofBits, Ideal.ieee]

/-- An extended real with `|a| < +∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the features is a real number. -/
theorem finite_of_pre (x : FVec Ideal S16384x128 .f32) (e : IVec S2x262144 32) (w : FVec Ideal S128x128 .f32)
    (h : Cert.Pre_finite_inputs.fn (F := Ideal) x e w = fun _ => 1#1) : ∀ i, ∃ r : ℝ, x i = (r : EReal) := by
  have h0 := congrFun h ValueIdx.ix0
  dsimp only [Cert.Pre_finite_inputs.fn] at h0
  obtain ⟨hx, -⟩ := IntOp.andi_eq_one.1 h0
  intro i
  have hi := Host.reduce_andi_all _ _ _ _ ValueIdx.ix0 hx i
  have hb : broadcastInDim S16384x128 ![] bcast_S_S16384x128 (constant (F := Ideal) S_ .f32 0x7F800000#32) i
      = Ideal.ofBits .f32 0x7F800000#32 :=
    broadcastInDim_apply _ bcast_S_S16384x128 _ i ValueIdx.ix0 (fun a => a.elim0)
  have hc : Ideal.cmp .olt (max (x i) (-(x i))) (Ideal.ofBits .f32 0x7F800000#32) = 1#1 := by
    rw [← hb]; exact hi
  rw [ofBits_inf_f32] at hc
  refine real_of_abs_lt_top _ ?_
  by_contra hn
  simp [Ideal.cmp, hn] at hc

end Cert.GcnRef
-- ==== Proof.lean ====
/-
  A dense graph-convolution layer, tiled, against its plain reference, on the extended reals.

  Both programs build the 0/1 adjacency `A` from the edge list by the same host operations. The reference forms
  `A' = A + I`, the degrees `deg = A'·1`, `d = rsqrt deg` (0 where `deg ≤ 0`), the normalized matrix
  `L = (A' ∘ d dᵀ)`, and returns `tanh ((L x) W)`. The kernel never forms `L`: a first tiled region sums the rows of `A`
  block by block and stores `d = rsqrt (Σ_j A r j + 1)` in every lane; the features are scaled, `xs = d ∘ x`; a second
  tiled region accumulates `A · xs` block by block, adds `xs` (the identity's share), scales the rows by `d`, multiplies
  by `W` and applies `tanh`. On the extended reals the two agree where `x` is finite: `A` is finite (its entries are 0
  or 1), hence so are the degrees and `d`, and then `Σ_j ((A r j + δ r j) · d r) · d j · x j c` is
  `((Σ_j A r j · (x j c · d j)) + x r c · d r) · d r` by distributivity in the reals; the block order of the sums is
  immaterial (addition is associative and commutative), and a change of float format is the identity.

  The frames: each tiled region is run point by point — the accumulator reset at the first column block of a row block,
  added to at every point, the output block stored (and written back) at the last — and the host operations between the
  regions step over the buffers' contents; nothing writes an argument.
-/
import proofs.«163696_j36515811950755_1_alg».proof.Defs
import proofs.«163696_j36515811950755_1_alg».proof.Proof.Gen.Kernel
import proofs.«163696_j36515811950755_1_alg».proof.Proof.Gen.KernelIdeal
import proofs.«163696_j36515811950755_1_alg».proof.Proof.Gen.ReferenceIdeal
import proofs.«163696_j36515811950755_1_alg».proof.Proof.Gen.Pre_finite_inputs
import proofs.«163696_j36515811950755_1_alg».proof.Proof.Kernel.Frame
import proofs.«163696_j36515811950755_1_alg».proof.Proof.KernelIdeal.Value
import proofs.«163696_j36515811950755_1_alg».proof.Proof.Bridge
import proofs.«163696_j36515811950755_1_alg».proof.Proof.RefValue
import proofs.«163696_j36515811950755_1_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_p : Cert.frame_Kernel := fun m ρ _ => Cert.Kernel.Fr.frame m ρ
/-- So does its idealization. -/
theorem frame_pi : Cert.frame_KernelIdeal := fun m ρ _ => Cert.KernelIdeal.Fr.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, with finite features, both programs end at the specification's `out` of the
    adjacency built from the edge list, the features and the weights. -/
theorem algebraic : Cert.algebraic_KernelIdeal_ReferenceIdeal := by
  intro m ρ m' ρ' hpre hagree
  refine ⟨fun c => (Cert.KernelIdeal.Fr.dat1 (Cert.KernelIdeal.Fr.V3 m ρ) c).arrAt 5 Cert.KernelIdeal.cfg1.N,
    Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  have hx := Cert.GcnRef.finite_of_pre _ _ _ (hpre c)
  rw [Cert.ReferenceIdeal.ReadP.val_main_v40_eq, (hagree c).1, (hagree c).2.1, (hagree c).2.2,
    Cert.GcnRef.ref_value _ _ _ hx]
  refine Eq.trans ?_ (Cert.KernelIdeal.Fr.result_eq m ρ c).symm
  rw [Cert.Bridge.Amat_eq m ρ c]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
